-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v247) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024x32 : Shape := ⟨3, ![2048, 1024, 32]⟩
abbrev S_ : Shape := ⟨0, ![]⟩

class Facts : Prop where
  bcast_S_S2048x1024x32 : S_.BroadcastsInDim S2048x1024x32 (![] : Fin 0 → Fin S2048x1024x32.rank)
  reducesTo_S2048x1024x32_S_d0_1_2 : S2048x1024x32.ReducesTo [0, 1, 2] S_
  h_S_ : 0 < S_.numel

variable [Facts]

def fn {F : FTy → Type} [FloatOps F] (main_arg0 : FVec F S2048x1024x32 .f32) : IVec S_ 1 :=
  let main_v0 : FVec F S2048x1024x32 .f32 := Host.absf main_arg0
  let main_cst : FVec F S_ .f32 := constant S_ .f32 0x7F800000#32
  let main_v1 : FVec F S2048x1024x32 .f32 := broadcastInDim S2048x1024x32 ![] bcast_S_S2048x1024x32 main_cst
  let main_v2 : IVec S2048x1024x32 1 := cmpf .olt main_v0 main_v1
  let main_c : IVec S_ 1 := constantI S_ 1 1#1
  let main_v3 : IVec S_ 1 := (fun x v => Host.reduce IntOp.andi x v reducesTo_S2048x1024x32_S_d0_1_2 h_S_) main_v2 main_c
  main_v3
-- ==== Kernel.lean ====
abbrev S2048x1024x32 : Shape := ⟨3, ![2048, 1024, 32]⟩
abbrev S16384x128x32 : Shape := ⟨3, ![16384, 128, 32]⟩
abbrev S5x16384x128 : Shape := ⟨3, ![5, 16384, 128]⟩
abbrev S128x128x32 : Shape := ⟨3, ![128, 128, 32]⟩
abbrev S5x128x128 : Shape := ⟨3, ![5, 128, 128]⟩
abbrev S128x32x128 : Shape := ⟨3, ![128, 32, 128]⟩
abbrev S128x128 : Shape := ⟨2, ![128, 128]⟩
abbrev S128x1x128 : Shape := ⟨3, ![128, 1, 128]⟩
abbrev S1x128x128 : Shape := ⟨3, ![1, 128, 128]⟩
abbrev S16384x128x5 : Shape := ⟨3, ![16384, 128, 5]⟩
abbrev S2097152x5 : Shape := ⟨2, ![2097152, 5]⟩
abbrev S2048x1024x5 : Shape := ⟨3, ![2048, 1024, 5]⟩

abbrev nBuf : Space → Nat
  | .hbm => 6
  | .vmem => 4
  | .smem => 0
  | _ => 0

abbrev bufTy : (tb : Table) → Fin (tcTables nBuf tb) → BufTy
  | .hbm, ⟨0, _⟩ => ⟨S2048x1024x32, .f32⟩
  | .hbm, ⟨1, _⟩ => ⟨S16384x128x32, .f32⟩
  | .hbm, ⟨2, _⟩ => ⟨S5x16384x128, .f32⟩
  | .hbm, ⟨3, _⟩ => ⟨S16384x128x5, .f32⟩
  | .hbm, ⟨4, _⟩ => ⟨S2097152x5, .f32⟩
  | .hbm, ⟨5, _⟩ => ⟨S2048x1024x5, .f32⟩
  | .local _ .vmem, ⟨0, _⟩ => ⟨S128x128x32, .f32⟩
  | .local _ .vmem, ⟨1, _⟩ => ⟨S128x128x32, .f32⟩
  | .local _ .vmem, ⟨2, _⟩ => ⟨S5x128x128, .f32⟩
  | .local _ .vmem, ⟨3, _⟩ => ⟨S5x128x128, .f32⟩
  | _, _ => ⟨S2048x1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S128x128x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S2048x1024x32_S16384x128x32 : S2048x1024x32.ShapeCasts S16384x128x32
  inb_S128x128x32_S128x128x32_0_0_0 : ∀ a, (![0, 0, 0] : Fin 3 → Nat) a + S128x128x32.size a ≤ S128x128x32.size a
  h_S128x128x32 : 0 < S128x128x32.numel
  shapeCasts_S128x128x32_S128x128x32 : S128x128x32.ShapeCasts S128x128x32
  transposes_S128x128x32_p0_2_1_S128x32x128 : S128x128x32.Transposes [0, 2, 1] S128x32x128
  slices_S128x32x128_o0_1_0_S128x1x128 : S128x32x128.Slices ![0, 1, 0] S128x1x128
  shapeCasts_S128x1x128_S128x128 : S128x1x128.ShapeCasts S128x128
  slices_S128x32x128_o0_2_0_S128x1x128 : S128x32x128.Slices ![0, 2, 0] S128x1x128
  slices_S128x32x128_o0_3_0_S128x1x128 : S128x32x128.Slices ![0, 3, 0] S128x1x128
  slices_S128x32x128_o0_4_0_S128x1x128 : S128x32x128.Slices ![0, 4, 0] S128x1x128
  slices_S128x32x128_o0_5_0_S128x1x128 : S128x32x128.Slices ![0, 5, 0] S128x1x128
  slices_S128x32x128_o0_6_0_S128x1x128 : S128x32x128.Slices ![0, 6, 0] S128x1x128
  slices_S128x32x128_o0_7_0_S128x1x128 : S128x32x128.Slices ![0, 7, 0] S128x1x128
  slices_S128x32x128_o0_8_0_S128x1x128 : S128x32x128.Slices ![0, 8, 0] S128x1x128
  slices_S128x32x128_o0_9_0_S128x1x128 : S128x32x128.Slices ![0, 9, 0] S128x1x128
  slices_S128x32x128_o0_10_0_S128x1x128 : S128x32x128.Slices ![0, 10, 0] S128x1x128
  slices_S128x32x128_o0_11_0_S128x1x128 : S128x32x128.Slices ![0, 11, 0] S128x1x128
  slices_S128x32x128_o0_12_0_S128x1x128 : S128x32x128.Slices ![0, 12, 0] S128x1x128
  shapeCasts_S128x128_S1x128x128 : S128x128.ShapeCasts S1x128x128
  concatenates_S1x128x128_S1x128x128_S1x128x128_S1x128x128_S1x128x128_S5x128x128_d0 : Shape.Concatenates [S1x128x128, S1x128x128, S1x128x128, S1x128x128, S1x128x128] S5x128x128 0
  inb_S5x128x128_S5x128x128_0_0_0 : ∀ a, (![0, 0, 0] : Fin 3 → Nat) a + S5x128x128.size a ≤ S5x128x128.size a
  h_S5x128x128 : 0 < S5x128x128.numel
  transposes_S5x16384x128_S16384x128x5_1_2_0 : S5x16384x128.Transposes [1, 2, 0] S16384x128x5
  shapeCasts_S16384x128x5_S2097152x5 : S16384x128x5.ShapeCasts S2097152x5
  shapeCasts_S2097152x5_S2048x1024x5 : S2097152x5.ShapeCasts S2048x1024x5
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128x32.size a ≤ S16384x128x32.size a
  hwx0_0 : ∀ i : grid0.Coords, EltTy.bits .f32 = 32 ∨ (Rect.block (s := S16384x128x32) S128x128x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5x128x128.size a ≤ S5x16384x128.size a
  hwx0_1 : ∀ i : grid0.Coords, EltTy.bits .f32 = 32 ∨ (Rect.block (s := S5x16384x128) S5x128x128.size (cc0_transform_1 i) (hinb0_1 i)).WholeWords (EltTy.packing .f32)

variable [Facts₀]

abbrev win0_0 : Pipeline.Window sig grid0 :=
  Pipeline.Window.ofSpec (Memref.whole main_v0) S128x128x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S5x128x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x1024x32 : Shape := ⟨3, ![2048, 1024, 32]⟩
abbrev S_ : Shape := ⟨0, ![]⟩
abbrev S2048x1024x1 : Shape := ⟨3, ![2048, 1024, 1]⟩
abbrev S2048x1024x8 : Shape := ⟨3, ![2048, 1024, 8]⟩
abbrev S2048x1024x5 : Shape := ⟨3, ![2048, 1024, 5]⟩

abbrev nBuf : Space → Nat
  | .hbm => 283
  | .vmem => 0
  | .smem => 0
  | _ => 0

abbrev hbmTy0_0 (i : Nat) : BufTy := match i % 128 with
  | 0 => ⟨S2048x1024x32, .f32⟩
  | 1 => ⟨S_, .f32⟩
  | 2 => ⟨S2048x1024x1, .f32⟩
  | 3 => ⟨S_, .f32⟩
  | 4 => ⟨S2048x1024x1, .f32⟩
  | 5 => ⟨S2048x1024x8, .f32⟩
  | 6 => ⟨S2048x1024x1, .f32⟩
  | 7 => ⟨S2048x1024x1, .f32⟩
  | 8 => ⟨S2048x1024x1, .f32⟩
  | 9 => ⟨S2048x1024x1, .f32⟩
  | 10 => ⟨S2048x1024x1, .f32⟩
  | 11 => ⟨S2048x1024x1, .f32⟩
  | 12 => ⟨S2048x1024x1, .f32⟩
  | 13 => ⟨S2048x1024x1, .f32⟩
  | 14 => ⟨S2048x1024x1, .f32⟩
  | 15 => ⟨S2048x1024x1, .f32⟩
  | 16 => ⟨S2048x1024x1, .f32⟩
  | 17 => ⟨S2048x1024x1, .f32⟩
  | 18 => ⟨S2048x1024x1, .f32⟩
  | 19 => ⟨S_, .f32⟩
  | 20 => ⟨S2048x1024x1, .f32⟩
  | 21 => ⟨S2048x1024x1, .f32⟩
  | 22 => ⟨S2048x1024x1, .f32⟩
  | 23 => ⟨S_, .f32⟩
  | 24 => ⟨S2048x1024x1, .f32⟩
  | 25 => ⟨S2048x1024x1, .f32⟩
  | 26 => ⟨S2048x1024x1, .f32⟩
  | 27 => ⟨S2048x1024x1, .f32⟩
  | 28 => ⟨S2048x1024x1, .f32⟩
  | 29 => ⟨S_, .f32⟩
  | 30 => ⟨S2048x1024x1, .f32⟩
  | 31 => ⟨S2048x1024x1, .f32⟩
  | 32 => ⟨S2048x1024x1, .f32⟩
  | 33 => ⟨S2048x1024x1, .f32⟩
  | 34 => ⟨S2048x1024x1, .f32⟩
  | 35 => ⟨S2048x1024x1, .f32⟩
  | 36 => ⟨S2048x1024x1, .f32⟩
  | 37 => ⟨S2048x1024x1, .f32⟩
  | 38 => ⟨S2048x1024x1, .f32⟩
  | 39 => ⟨S2048x1024x1, .f32⟩
  | 40 => ⟨S2048x1024x1, .f32⟩
  | 41 => ⟨S2048x1024x1, .f32⟩
  | 42 => ⟨S_, .f32⟩
  | 43 => ⟨S2048x1024x1, .f32⟩
  | 44 => ⟨S2048x1024x1, .f32⟩
  | 45 => ⟨S2048x1024x1, .f32⟩
  | 46 => ⟨S_, .f32⟩
  | 47 => ⟨S2048x1024x1, .f32⟩
  | 48 => ⟨S2048x1024x1, .f32⟩
  | 49 => ⟨S2048x1024x1, .f32⟩
  | 50 => ⟨S2048x1024x1, .f32⟩
  | 51 => ⟨S2048x1024x1, .f32⟩
  | 52 => ⟨S_, .f32⟩
  | 53 => ⟨S2048x1024x1, .f32⟩
  | 54 => ⟨S2048x1024x1, .f32⟩
  | 55 => ⟨S2048x1024x1, .f32⟩
  | 56 => ⟨S2048x1024x1, .f32⟩
  | 57 => ⟨S2048x1024x1, .f32⟩
  | 58 => ⟨S2048x1024x1, .f32⟩
  | 59 => ⟨S2048x1024x1, .f32⟩
  | 60 => ⟨S2048x1024x1, .f32⟩
  | 61 => ⟨S2048x1024x1, .f32⟩
  | 62 => ⟨S2048x1024x1, .f32⟩
  | 63 => ⟨S2048x1024x1, .f32⟩
  | 64 => ⟨S2048x1024x1, .f32⟩
  | 65 => ⟨S_, .f32⟩
  | 66 => ⟨S2048x1024x1, .f32⟩
  | 67 => ⟨S2048x1024x1, .f32⟩
  | 68 => ⟨S2048x1024x1, .f32⟩
  | 69 => ⟨S_, .f32⟩
  | 70 => ⟨S2048x1024x1, .f32⟩
  | 71 => ⟨S2048x1024x1, .f32⟩
  | 72 => ⟨S2048x1024x1, .f32⟩
  | 73 => ⟨S2048x1024x1, .f32⟩
  | 74 => ⟨S2048x1024x1, .f32⟩
  | 75 => ⟨S_, .f32⟩
  | 76 => ⟨S2048x1024x1, .f32⟩
  | 77 => ⟨S2048x1024x1, .f32⟩
  | 78 => ⟨S2048x1024x1, .f32⟩
  | 79 => ⟨S2048x1024x1, .f32⟩
  | 80 => ⟨S2048x1024x1, .f32⟩
  | 81 => ⟨S2048x1024x1, .f32⟩
  | 82 => ⟨S2048x1024x1, .f32⟩
  | 83 => ⟨S2048x1024x1, .f32⟩
  | 84 => ⟨S2048x1024x1, .f32⟩
  | 85 => ⟨S2048x1024x1, .f32⟩
  | 86 => ⟨S2048x1024x1, .f32⟩
  | 87 => ⟨S2048x1024x1, .f32⟩
  | 88 => ⟨S_, .f32⟩
  | 89 => ⟨S2048x1024x1, .f32⟩
  | 90 => ⟨S2048x1024x1, .f32⟩
  | 91 => ⟨S2048x1024x1, .f32⟩
  | 92 => ⟨S_, .f32⟩
  | 93 => ⟨S2048x1024x1, .f32⟩
  | 94 => ⟨S2048x1024x1, .f32⟩
  | 95 => ⟨S2048x1024x1, .f32⟩
  | 96 => ⟨S2048x1024x1, .f32⟩
  | 97 => ⟨S2048x1024x1, .f32⟩
  | 98 => ⟨S_, .f32⟩
  | 99 => ⟨S2048x1024x1, .f32⟩
  | 100 => ⟨S2048x1024x1, .f32⟩
  | 101 => ⟨S2048x1024x1, .f32⟩
  | 102 => ⟨S2048x1024x1, .f32⟩
  | 103 => ⟨S2048x1024x1, .f32⟩
  | 104 => ⟨S2048x1024x1, .f32⟩
  | 105 => ⟨S2048x1024x1, .f32⟩
  | 106 => ⟨S2048x1024x1, .f32⟩
  | 107 => ⟨S2048x1024x1, .f32⟩
  | 108 => ⟨S2048x1024x1, .f32⟩
  | 109 => ⟨S2048x1024x1, .f32⟩
  | 110 => ⟨S2048x1024x1, .f32⟩
  | 111 => ⟨S_, .f32⟩
  | 112 => ⟨S2048x1024x1, .f32⟩
  | 113 => ⟨S2048x1024x1, .f32⟩
  | 114 => ⟨S2048x1024x1, .f32⟩
  | 115 => ⟨S_, .f32⟩
  | 116 => ⟨S2048x1024x1, .f32⟩
  | 117 => ⟨S2048x1024x1, .f32⟩
  | 118 => ⟨S2048x1024x1, .f32⟩
  | 119 => ⟨S2048x1024x1, .f32⟩
  | 120 => ⟨S2048x1024x1, .f32⟩
  | 121 => ⟨S_, .f32⟩
  | 122 => ⟨S2048x1024x1, .f32⟩
  | 123 => ⟨S2048x1024x1, .f32⟩
  | 124 => ⟨S2048x1024x1, .f32⟩
  | 125 => ⟨S2048x1024x1, .f32⟩
  | 126 => ⟨S2048x1024x1, .f32⟩
  | 127 => ⟨S2048x1024x1, .f32⟩
  | _ => ⟨S2048x1024x32, .f32⟩

abbrev hbmTy0_1 (i : Nat) : BufTy := match i % 128 with
  | 0 => ⟨S2048x1024x1, .f32⟩
  | 1 => ⟨S2048x1024x1, .f32⟩
  | 2 => ⟨S2048x1024x1, .f32⟩
  | 3 => ⟨S2048x1024x1, .f32⟩
  | 4 => ⟨S2048x1024x1, .f32⟩
  | 5 => ⟨S2048x1024x1, .f32⟩
  | 6 => ⟨S_, .f32⟩
  | 7 => ⟨S2048x1024x1, .f32⟩
  | 8 => ⟨S2048x1024x1, .f32⟩
  | 9 => ⟨S2048x1024x1, .f32⟩
  | 10 => ⟨S_, .f32⟩
  | 11 => ⟨S2048x1024x1, .f32⟩
  | 12 => ⟨S2048x1024x1, .f32⟩
  | 13 => ⟨S2048x1024x1, .f32⟩
  | 14 => ⟨S2048x1024x1, .f32⟩
  | 15 => ⟨S2048x1024x1, .f32⟩
  | 16 => ⟨S_, .f32⟩
  | 17 => ⟨S2048x1024x1, .f32⟩
  | 18 => ⟨S2048x1024x1, .f32⟩
  | 19 => ⟨S2048x1024x1, .f32⟩
  | 20 => ⟨S2048x1024x1, .f32⟩
  | 21 => ⟨S2048x1024x1, .f32⟩
  | 22 => ⟨S2048x1024x1, .f32⟩
  | 23 => ⟨S2048x1024x1, .f32⟩
  | 24 => ⟨S2048x1024x1, .f32⟩
  | 25 => ⟨S2048x1024x1, .f32⟩
  | 26 => ⟨S2048x1024x1, .f32⟩
  | 27 => ⟨S2048x1024x1, .f32⟩
  | 28 => ⟨S2048x1024x1, .f32⟩
  | 29 => ⟨S_, .f32⟩
  | 30 => ⟨S2048x1024x1, .f32⟩
  | 31 => ⟨S2048x1024x1, .f32⟩
  | 32 => ⟨S2048x1024x1, .f32⟩
  | 33 => ⟨S_, .f32⟩
  | 34 => ⟨S2048x1024x1, .f32⟩
  | 35 => ⟨S2048x1024x1, .f32⟩
  | 36 => ⟨S2048x1024x1, .f32⟩
  | 37 => ⟨S2048x1024x1, .f32⟩
  | 38 => ⟨S2048x1024x1, .f32⟩
  | 39 => ⟨S_, .f32⟩
  | 40 => ⟨S2048x1024x1, .f32⟩
  | 41 => ⟨S2048x1024x1, .f32⟩
  | 42 => ⟨S2048x1024x1, .f32⟩
  | 43 => ⟨S2048x1024x1, .f32⟩
  | 44 => ⟨S2048x1024x1, .f32⟩
  | 45 => ⟨S2048x1024x1, .f32⟩
  | 46 => ⟨S2048x1024x1, .f32⟩
  | 47 => ⟨S2048x1024x1, .f32⟩
  | 48 => ⟨S2048x1024x1, .f32⟩
  | 49 => ⟨S2048x1024x1, .f32⟩
  | 50 => ⟨S2048x1024x1, .f32⟩
  | 51 => ⟨S2048x1024x1, .f32⟩
  | 52 => ⟨S_, .f32⟩
  | 53 => ⟨S2048x1024x1, .f32⟩
  | 54 => ⟨S2048x1024x1, .f32⟩
  | 55 => ⟨S2048x1024x1, .f32⟩
  | 56 => ⟨S_, .f32⟩
  | 57 => ⟨S2048x1024x1, .f32⟩
  | 58 => ⟨S2048x1024x1, .f32⟩
  | 59 => ⟨S2048x1024x1, .f32⟩
  | 60 => ⟨S2048x1024x1, .f32⟩
  | 61 => ⟨S2048x1024x1, .f32⟩
  | 62 => ⟨S_, .f32⟩
  | 63 => ⟨S2048x1024x1, .f32⟩
  | 64 => ⟨S2048x1024x1, .f32⟩
  | 65 => ⟨S2048x1024x1, .f32⟩
  | 66 => ⟨S_, .f32⟩
  | 67 => ⟨S2048x1024x1, .f32⟩
  | 68 => ⟨S2048x1024x1, .f32⟩
  | 69 => ⟨S_, .f32⟩
  | 70 => ⟨S2048x1024x1, .f32⟩
  | 71 => ⟨S2048x1024x1, .f32⟩
  | 72 => ⟨S_, .f32⟩
  | 73 => ⟨S2048x1024x1, .f32⟩
  | 74 => ⟨S2048x1024x1, .f32⟩
  | 75 => ⟨S_, .f32⟩
  | 76 => ⟨S2048x1024x1, .f32⟩
  | 77 => ⟨S2048x1024x1, .f32⟩
  | 78 => ⟨S_, .f32⟩
  | 79 => ⟨S2048x1024x1, .f32⟩
  | 80 => ⟨S2048x1024x1, .f32⟩
  | 81 => ⟨S_, .f32⟩
  | 82 => ⟨S2048x1024x1, .f32⟩
  | 83 => ⟨S2048x1024x1, .f32⟩
  | 84 => ⟨S_, .f32⟩
  | 85 => ⟨S2048x1024x1, .f32⟩
  | 86 => ⟨S2048x1024x1, .f32⟩
  | 87 => ⟨S_, .f32⟩
  | 88 => ⟨S2048x1024x1, .f32⟩
  | 89 => ⟨S2048x1024x1, .f32⟩
  | 90 => ⟨S2048x1024x1, .f32⟩
  | 91 => ⟨S2048x1024x1, .f32⟩
  | 92 => ⟨S2048x1024x1, .f32⟩
  | 93 => ⟨S2048x1024x1, .f32⟩
  | 94 => ⟨S2048x1024x1, .f32⟩
  | 95 => ⟨S2048x1024x1, .f32⟩
  | 96 => ⟨S2048x1024x1, .f32⟩
  | 97 => ⟨S2048x1024x1, .f32⟩
  | 98 => ⟨S2048x1024x1, .f32⟩
  | 99 => ⟨S2048x1024x1, .f32⟩
  | 100 => ⟨S2048x1024x1, .f32⟩
  | 101 => ⟨S2048x1024x1, .f32⟩
  | 102 => ⟨S2048x1024x1, .f32⟩
  | 103 => ⟨S2048x1024x1, .f32⟩
  | 104 => ⟨S2048x1024x1, .f32⟩
  | 105 => ⟨S2048x1024x1, .f32⟩
  | 106 => ⟨S2048x1024x1, .f32⟩
  | 107 => ⟨S2048x1024x1, .f32⟩
  | 108 => ⟨S2048x1024x1, .f32⟩
  | 109 => ⟨S2048x1024x1, .f32⟩
  | 110 => ⟨S2048x1024x1, .f32⟩
  | 111 => ⟨S2048x1024x1, .f32⟩
  | 112 => ⟨S2048x1024x1, .f32⟩
  | 113 => ⟨S2048x1024x1, .f32⟩
  | 114 => ⟨S2048x1024x1, .f32⟩
  | 115 => ⟨S2048x1024x1, .f32⟩
  | 116 => ⟨S2048x1024x1, .f32⟩
  | 117 => ⟨S2048x1024x1, .f32⟩
  | 118 => ⟨S2048x1024x1, .f32⟩
  | 119 => ⟨S2048x1024x1, .f32⟩
  | 120 => ⟨S2048x1024x1, .f32⟩
  | 121 => ⟨S2048x1024x1, .f32⟩
  | 122 => ⟨S2048x1024x1, .f32⟩
  | 123 => ⟨S2048x1024x1, .f32⟩
  | 124 => ⟨S2048x1024x1, .f32⟩
  | 125 => ⟨S2048x1024x1, .f32⟩
  | 126 => ⟨S2048x1024x1, .f32⟩
  | 127 => ⟨S2048x1024x1, .f32⟩
  | _ => ⟨S2048x1024x32, .f32⟩

abbrev hbmTy0_2 (i : Nat) : BufTy := match i % 128 with
  | 0 => ⟨S2048x1024x1, .f32⟩
  | 1 => ⟨S2048x1024x1, .f32⟩
  | 2 => ⟨S2048x1024x1, .f32⟩
  | 3 => ⟨S2048x1024x1, .f32⟩
  | 4 => ⟨S2048x1024x1, .f32⟩
  | 5 => ⟨S2048x1024x1, .f32⟩
  | 6 => ⟨S2048x1024x1, .f32⟩
  | 7 => ⟨S2048x1024x1, .f32⟩
  | 8 => ⟨S2048x1024x1, .f32⟩
  | 9 => ⟨S2048x1024x1, .f32⟩
  | 10 => ⟨S2048x1024x1, .f32⟩
  | 11 => ⟨S2048x1024x1, .f32⟩
  | 12 => ⟨S2048x1024x1, .f32⟩
  | 13 => ⟨S2048x1024x1, .f32⟩
  | 14 => ⟨S2048x1024x1, .f32⟩
  | 15 => ⟨S2048x1024x1, .f32⟩
  | 16 => ⟨S2048x1024x1, .f32⟩
  | 17 => ⟨S2048x1024x1, .f32⟩
  | 18 => ⟨S2048x1024x1, .f32⟩
  | 19 => ⟨S2048x1024x1, .f32⟩
  | 20 => ⟨S2048x1024x1, .f32⟩
  | 21 => ⟨S2048x1024x1, .f32⟩
  | 22 => ⟨S2048x1024x1, .f32⟩
  | 23 => ⟨S2048x1024x1, .f32⟩
  | 24 => ⟨S2048x1024x1, .f32⟩
  | 25 => ⟨S2048x1024x1, .f32⟩
  | 26 => ⟨S2048x1024x5, .f32⟩
  | _ => ⟨S2048x1024x32, .f32⟩

abbrev hbmTy (i : Nat) : BufTy := match i / 128 with
  | 0 => hbmTy0_0 i
  | 1 => hbmTy0_1 i
  | 2 => hbmTy0_2 i
  | _ => ⟨S2048x1024x32, .f32⟩

abbrev bufTy : (tb : Table) → Fin (tcTables nBuf tb) → BufTy
  | .hbm, ⟨i, _⟩ => hbmTy i
  | _, _ => ⟨S2048x1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_1 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_2 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_3 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_4 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_5 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_6 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_cst_7 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_cst_8 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_cst_9 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_cst_10 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_cst_11 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_cst_12 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_cst_13 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_cst_14 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_cst_15 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_cst_16 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_cst_17 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_cst_18 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_cst_19 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_cst_20 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_cst_21 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_cst_22 : Ref sig .tc := ⟨.hbm, 180, rfl⟩
abbrev main_v156 : Ref sig .tc := ⟨.hbm, 181, rfl⟩
abbrev main_v157 : Ref sig .tc := ⟨.hbm, 182, rfl⟩
abbrev main_v158 : Ref sig .tc := ⟨.hbm, 183, rfl⟩
abbrev main_cst_23 : Ref sig .tc := ⟨.hbm, 184, rfl⟩
abbrev main_v159 : Ref sig .tc := ⟨.hbm, 185, rfl⟩
abbrev main_v160 : Ref sig .tc := ⟨.hbm, 186, rfl⟩
abbrev main_v161 : Ref sig .tc := ⟨.hbm, 187, rfl⟩
abbrev main_v162 : Ref sig .tc := ⟨.hbm, 188, rfl⟩
abbrev main_v163 : Ref sig .tc := ⟨.hbm, 189, rfl⟩
abbrev main_cst_24 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_cst_25 : Ref sig .tc := ⟨.hbm, 194, rfl⟩
abbrev main_v167 : Ref sig .tc := ⟨.hbm, 195, rfl⟩
abbrev main_v168 : Ref sig .tc := ⟨.hbm, 196, rfl⟩
abbrev main_cst_26 : Ref sig .tc := ⟨.hbm, 197, rfl⟩
abbrev main_v169 : Ref sig .tc := ⟨.hbm, 198, rfl⟩
abbrev main_v170 : Ref sig .tc := ⟨.hbm, 199, rfl⟩
abbrev main_cst_27 : Ref sig .tc := ⟨.hbm, 200, rfl⟩
abbrev main_v171 : Ref sig .tc := ⟨.hbm, 201, rfl⟩
abbrev main_v172 : Ref sig .tc := ⟨.hbm, 202, rfl⟩
abbrev main_cst_28 : Ref sig .tc := ⟨.hbm, 203, rfl⟩
abbrev main_v173 : Ref sig .tc := ⟨.hbm, 204, rfl⟩
abbrev main_v174 : Ref sig .tc := ⟨.hbm, 205, rfl⟩
abbrev main_cst_29 : Ref sig .tc := ⟨.hbm, 206, rfl⟩
abbrev main_v175 : Ref sig .tc := ⟨.hbm, 207, rfl⟩
abbrev main_v176 : Ref sig .tc := ⟨.hbm, 208, rfl⟩
abbrev main_cst_30 : Ref sig .tc := ⟨.hbm, 209, rfl⟩
abbrev main_v177 : Ref sig .tc := ⟨.hbm, 210, rfl⟩
abbrev main_v178 : Ref sig .tc := ⟨.hbm, 211, rfl⟩
abbrev main_cst_31 : Ref sig .tc := ⟨.hbm, 212, rfl⟩
abbrev main_v179 : Ref sig .tc := ⟨.hbm, 213, rfl⟩
abbrev main_v180 : Ref sig .tc := ⟨.hbm, 214, rfl⟩
abbrev main_cst_32 : Ref sig .tc := ⟨.hbm, 215, rfl⟩
abbrev main_v181 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_v186 : Ref sig .tc := ⟨.hbm, 221, rfl⟩
abbrev main_v187 : Ref sig .tc := ⟨.hbm, 222, rfl⟩
abbrev main_v188 : Ref sig .tc := ⟨.hbm, 223, rfl⟩
abbrev main_v189 : Ref sig .tc := ⟨.hbm, 224, rfl⟩
abbrev main_v190 : Ref sig .tc := ⟨.hbm, 225, rfl⟩
abbrev main_v191 : Ref sig .tc := ⟨.hbm, 226, rfl⟩
abbrev main_v192 : Ref sig .tc := ⟨.hbm, 227, rfl⟩
abbrev main_v193 : Ref sig .tc := ⟨.hbm, 228, rfl⟩
abbrev main_v194 : Ref sig .tc := ⟨.hbm, 229, rfl⟩
abbrev main_v195 : Ref sig .tc := ⟨.hbm, 230, rfl⟩
abbrev main_v196 : Ref sig .tc := ⟨.hbm, 231, rfl⟩
abbrev main_v197 : Ref sig .tc := ⟨.hbm, 232, rfl⟩
abbrev main_v198 : Ref sig .tc := ⟨.hbm, 233, rfl⟩
abbrev main_v199 : Ref sig .tc := ⟨.hbm, 234, rfl⟩
abbrev main_v200 : Ref sig .tc := ⟨.hbm, 235, rfl⟩
abbrev main_v201 : Ref sig .tc := ⟨.hbm, 236, rfl⟩
abbrev main_v202 : Ref sig .tc := ⟨.hbm, 237, rfl⟩
abbrev main_v203 : Ref sig .tc := ⟨.hbm, 238, rfl⟩
abbrev main_v204 : Ref sig .tc := ⟨.hbm, 239, rfl⟩
abbrev main_v205 : Ref sig .tc := ⟨.hbm, 240, rfl⟩
abbrev main_v206 : Ref sig .tc := ⟨.hbm, 241, rfl⟩
abbrev main_v207 : Ref sig .tc := ⟨.hbm, 242, rfl⟩
abbrev main_v208 : Ref sig .tc := ⟨.hbm, 243, rfl⟩
abbrev main_v209 : Ref sig .tc := ⟨.hbm, 244, rfl⟩
abbrev main_v210 : Ref sig .tc := ⟨.hbm, 245, rfl⟩
abbrev main_v211 : Ref sig .tc := ⟨.hbm, 246, rfl⟩
abbrev main_v212 : Ref sig .tc := ⟨.hbm, 247, rfl⟩
abbrev main_v213 : Ref sig .tc := ⟨.hbm, 248, rfl⟩
abbrev main_v214 : Ref sig .tc := ⟨.hbm, 249, rfl⟩
abbrev main_v215 : Ref sig .tc := ⟨.hbm, 250, rfl⟩
abbrev main_v216 : Ref sig .tc := ⟨.hbm, 251, rfl⟩
abbrev main_v217 : Ref sig .tc := ⟨.hbm, 252, rfl⟩
abbrev main_v218 : Ref sig .tc := ⟨.hbm, 253, rfl⟩
abbrev main_v219 : Ref sig .tc := ⟨.hbm, 254, rfl⟩
abbrev main_v220 : Ref sig .tc := ⟨.hbm, 255, rfl⟩
abbrev main_v221 : Ref sig .tc := ⟨.hbm, 256, rfl⟩
abbrev main_v222 : Ref sig .tc := ⟨.hbm, 257, rfl⟩
abbrev main_v223 : Ref sig .tc := ⟨.hbm, 258, rfl⟩
abbrev main_v224 : Ref sig .tc := ⟨.hbm, 259, rfl⟩
abbrev main_v225 : Ref sig .tc := ⟨.hbm, 260, rfl⟩
abbrev main_v226 : Ref sig .tc := ⟨.hbm, 261, rfl⟩
abbrev main_v227 : Ref sig .tc := ⟨.hbm, 262, rfl⟩
abbrev main_v228 : Ref sig .tc := ⟨.hbm, 263, rfl⟩
abbrev main_v229 : Ref sig .tc := ⟨.hbm, 264, rfl⟩
abbrev main_v230 : Ref sig .tc := ⟨.hbm, 265, rfl⟩
abbrev main_v231 : Ref sig .tc := ⟨.hbm, 266, rfl⟩
abbrev main_v232 : Ref sig .tc := ⟨.hbm, 267, rfl⟩
abbrev main_v233 : Ref sig .tc := ⟨.hbm, 268, rfl⟩
abbrev main_v234 : Ref sig .tc := ⟨.hbm, 269, rfl⟩
abbrev main_v235 : Ref sig .tc := ⟨.hbm, 270, rfl⟩
abbrev main_v236 : Ref sig .tc := ⟨.hbm, 271, rfl⟩
abbrev main_v237 : Ref sig .tc := ⟨.hbm, 272, rfl⟩
abbrev main_v238 : Ref sig .tc := ⟨.hbm, 273, rfl⟩
abbrev main_v239 : Ref sig .tc := ⟨.hbm, 274, rfl⟩
abbrev main_v240 : Ref sig .tc := ⟨.hbm, 275, rfl⟩
abbrev main_v241 : Ref sig .tc := ⟨.hbm, 276, rfl⟩
abbrev main_v242 : Ref sig .tc := ⟨.hbm, 277, rfl⟩
abbrev main_v243 : Ref sig .tc := ⟨.hbm, 278, rfl⟩
abbrev main_v244 : Ref sig .tc := ⟨.hbm, 279, rfl⟩
abbrev main_v245 : Ref sig .tc := ⟨.hbm, 280, rfl⟩
abbrev main_v246 : Ref sig .tc := ⟨.hbm, 281, rfl⟩
abbrev main_v247 : Ref sig .tc := ⟨.hbm, 282, rfl⟩

abbrev nD : Nat := 1
abbrev τ : Topo := Topo.v7x

variable {F : FTy → Type} [FloatOps F]

class Facts₀ : Prop where
  bcast_S_S2048x1024x1 : S_.BroadcastsInDim S2048x1024x1 (![] : Fin 0 → Fin S2048x1024x1.rank)
  slices_S2048x1024x32_S2048x1024x8_0_0_1 : S2048x1024x32.Slices ![0, 0, 1] S2048x1024x8
  slices_S2048x1024x32_S2048x1024x1_0_0_9 : S2048x1024x32.Slices ![0, 0, 9] S2048x1024x1
  slices_S2048x1024x32_S2048x1024x1_0_0_10 : S2048x1024x32.Slices ![0, 0, 10] S2048x1024x1
  slices_S2048x1024x32_S2048x1024x1_0_0_11 : S2048x1024x32.Slices ![0, 0, 11] S2048x1024x1
  slices_S2048x1024x32_S2048x1024x1_0_0_12 : S2048x1024x32.Slices ![0, 0, 12] S2048x1024x1
  slices_S2048x1024x8_S2048x1024x1_0_0_7 : S2048x1024x8.Slices ![0, 0, 7] S2048x1024x1
  slices_S2048x1024x8_S2048x1024x1_0_0_6 : S2048x1024x8.Slices ![0, 0, 6] S2048x1024x1
  slices_S2048x1024x8_S2048x1024x1_0_0_5 : S2048x1024x8.Slices ![0, 0, 5] S2048x1024x1
  slices_S2048x1024x8_S2048x1024x1_0_0_4 : S2048x1024x8.Slices ![0, 0, 4] S2048x1024x1
  slices_S2048x1024x8_S2048x1024x1_0_0_3 : S2048x1024x8.Slices ![0, 0, 3] S2048x1024x1
  slices_S2048x1024x8_S2048x1024x1_0_0_2 : S2048x1024x8.Slices ![0, 0, 2] S2048x1024x1
  slices_S2048x1024x8_S2048x1024x1_0_0_1 : S2048x1024x8.Slices ![0, 0, 1] S2048x1024x1
  slices_S2048x1024x8_S2048x1024x1_0_0_0 : S2048x1024x8.Slices ![0, 0, 0] S2048x1024x1
  concatenates_S2048x1024x1_S2048x1024x1_S2048x1024x1_S2048x1024x1_S2048x1024x1_S2048x1024x5_d2 : Shape.Concatenates [S2048x1024x1, S2048x1024x1, S2048x1024x1, S2048x1024x1, S2048x1024x1] S2048x1024x5 2

variable [Facts₀]

class Facts : Prop extends Facts₀ where

variable [Facts]
-- ==== Proof.Finite.lean ====
/-
  From the precondition to real numbers: "every input is finite" says |x i| < +∞ at every index, so no entry of the
  argument is +∞ or -∞, and the argument is an array of reals.
-/
import proofs.«151646_j43860206027307_2_alg».proof.Pre_finite_inputs
import proofs.«151646_j43860206027307_2_alg».proof.Proof.Gen.Pre_finite_inputs
import Idealize.ShloMosaic.PureOps.Ideal
import Idealize.ShloMosaic.Lib.ReduceAll
import Idealize.ShloMosaic.Lib.ValueIdx
import Idealize.ShloMosaic.Lib.Pipeline.Value

noncomputable section

namespace Cert.Spike

open Idealize.ShloMosaic Idealize.ShloMosaic.ValueIdx

instance : Subsingleton Cert.Pre_finite_inputs.S_.Idx := ⟨fun a b => funext fun d => d.elim0⟩

/-- The infinity word. -/
theorem word_top : Ideal.ofBits .f32 0x7F800000#32 = (⊤ : EReal) := by simp [Ideal.ofBits, Ideal.ieee]

/-- Under the precondition no entry of the argument is an infinity. -/
theorem finite_of_pre (x : FVec Ideal Cert.Pre_finite_inputs.S2048x1024x32 .f32)
    (h : Cert.Pre_finite_inputs.fn (F := Ideal) x = fun _ => 1#1) (i : Cert.Pre_finite_inputs.S2048x1024x32.Idx) :
    x i ≠ (⊤ : EReal) ∧ x i ≠ (⊥ : EReal) := by
  have h0 := congrFun h ix0
  dsimp only [Cert.Pre_finite_inputs.fn] at h0
  have hi := Host.reduce_andi_all _ _ _ _ ix0 h0 i
  rw [cmpf_apply, broadcastInDim_apply _ _ _ i ix0 (fun a => a.elim0), constant_apply, word_top] at hi
  have hlt : max (x i) (-(x i)) < (⊤ : EReal) := by
    by_contra hn
    have : Ideal.cmp .olt (max (x i) (-(x i))) ⊤ = 0#1 := by
      unfold Ideal.cmp; simp [hn]
    exact absurd (hi.symm.trans this) (by decide)
  constructor
  · intro e; rw [e] at hlt; simp at hlt
  · intro e; rw [e] at hlt; simp at hlt

end Cert.Spike

end
-- ==== Proof.LibRealArray.lean ====
/-
  Arrays of reals read as arrays of extended reals, for kernels whose arithmetic is +, - and × on finite inputs.

  At the ideal instance a float is an extended real, and the laws a polynomial identity needs (distributivity,
  cancelling a term) fail at ±∞. When every input is finite, every intermediate array of such a kernel is the image
  of an array of REALS under the coercion ℝ → EReal, and the extended reals' sum, difference and product of two such
  arrays are the images of the reals' (`addf_cv`, `subf_cv`, `mulf_cv`). Rewriting with these three turns an equation
  between arrays of extended reals into one between arrays of reals (`cv_congr`), where `ring` applies. Any shape.
  Also here: the float words 0, 1, 2 and 4 as reals, and a splat of 1 or 2 as a constant real-valued array.
-/
import Idealize.ShloMosaic.PureOps.Ideal
import Idealize.ShloMosaic.PureOps.Ideal.Laws
import Idealize.ShloMosaic.Lib.ValueIdx

noncomputable section

namespace Cert.RealArray

open Idealize.ShloMosaic Idealize.ShloMosaic.ValueIdx

variable {s : Shape}

/-- An array of reals read as an array of (finite) extended reals. -/
def cv (f : s.Idx → ℝ) : FVec Ideal s .f32 := fun i => ((f i : ℝ) : EReal)

/-- Its entry at an index is the real entry, coerced. -/
theorem cv_apply (f : s.Idx → ℝ) (i : s.Idx) : cv f i = ((f i : ℝ) : EReal) := rfl

/-- Two real-valued arrays that agree entry by entry have the same image. -/
theorem cv_congr {f g : s.Idx → ℝ} (h : ∀ i, f i = g i) : cv f = cv g := by
  funext i; rw [cv_apply, cv_apply, h i]

/-- On finite values the extended reals' product is the reals'. -/
theorem mulf_cv (f g : s.Idx → ℝ) : mulf (cv f) (cv g) = cv (fun i => f i * g i) := by
  funext i; rw [mulf_apply, cv_apply, cv_apply, cv_apply, EReal.coe_mul]

/-- On finite values the extended reals' sum is the reals'. -/
theorem addf_cv (f g : s.Idx → ℝ) : addf (cv f) (cv g) = cv (fun i => f i + g i) := by
  funext i; rw [addf_apply, cv_apply, cv_apply, cv_apply, EReal.coe_add]

/-- On finite values the extended reals' difference is the reals'. -/
theorem subf_cv (f g : s.Idx → ℝ) : subf (cv f) (cv g) = cv (fun i => f i - g i) := by
  funext i; rw [subf_apply, cv_apply, cv_apply, cv_apply, EReal.coe_sub]

/-! ## Float words as reals -/

/-- The f32 word of 1.0 is the real 1. -/
theorem word_one : Ideal.ofBits .f32 0x3F800000#32 = ((1 : ℝ) : EReal) := by
  simp [Ideal.ofBits, Ideal.ieee, -EReal.coe_mul]; norm_num

/-- The f32 word of 2.0 is the real 2. -/
theorem word_two : Ideal.ofBits .f32 0x40000000#32 = ((2 : ℝ) : EReal) := by
  simp [Ideal.ofBits, Ideal.ieee, -EReal.coe_mul]; norm_num

/-- The f32 word of 4.0 is the real 4. -/
theorem word_four : Ideal.ofBits .f32 0x40800000#32 = ((4 : ℝ) : EReal) := by
  simp [Ideal.ofBits, Ideal.ieee, -EReal.coe_mul]; norm_num

/-- The f32 word of +0.0 is the real 0. -/
theorem word_zero : Ideal.ofBits .f32 0x00000000#32 = ((0 : ℝ) : EReal) := by
  rw [Ideal.ofBits_zero_f32]; rfl

/-- A kernel's splat of 1.0 is the constant real-valued array 1. -/
theorem broadcast_one : broadcast s (Scalar.ofBits (F := Ideal) .f32 0x3F800000#32) = cv (fun _ => (1 : ℝ)) := by
  funext i; exact word_one

/-- A kernel's splat of 2.0 is the constant real-valued array 2. -/
theorem broadcast_two : broadcast s (Scalar.ofBits (F := Ideal) .f32 0x40000000#32) = cv (fun _ => (2 : ℝ)) := by
  funext i; exact word_two

end Cert.RealArray

end
-- ==== Proof.Spec.lean ====
/-
  The arithmetic of one batch element, over the reals, and the result array both programs end with.

  A batch element is 32 values x 0 … x 31 (an FP32 word as "spikes", most significant first): x 1 … x 8 are the
  exponent bits e0 … e7 and x 9 … x 12 the top four mantissa bits m0 … m3. Both programs compute
  shift = e - 127 by a ripple-carry addition e + 10000000b + 1 on values that are NOT assumed to be bits: each
  gate is a polynomial (AND = product, NOT a = 1 - a, OR(p, q) = p + q - p q), so every quantity below is a
  polynomial in the x k and the statement is an identity of polynomials.

  At the positions 7 … 1 the added constant's bit is 0 and the full adder is a half adder: sum a + c - 2 a c, carry
  a c. At position 0 the constant's bit is 1: sum 1 - a - c + 2 a c. `k i` is the carry out of position i (the carry
  into position 7 is 1), `s i` the sum bit at position i.
-/
import Idealize.ShloMosaic.PureOps.Ideal
import Idealize.ShloMosaic.PureOps.Ideal.Laws
import Idealize.ShloMosaic.Lib.ValueIdx

noncomputable section

namespace Cert.Spike

open Idealize.ShloMosaic Idealize.ShloMosaic.ValueIdx

/-! ## One batch element -/

/-- The 32 values of one batch element. -/
abbrev Row := Fin 32 → ℝ

/-- Carries of e + 10000000b + 1, from the low end: each is the bit times the carry below it. -/
def k7 (x : Row) : ℝ := x 8 * 1
def k6 (x : Row) : ℝ := x 7 * k7 x
def k5 (x : Row) : ℝ := x 6 * k6 x
def k4 (x : Row) : ℝ := x 5 * k5 x
def k3 (x : Row) : ℝ := x 4 * k4 x
def k2 (x : Row) : ℝ := x 3 * k3 x
def k1 (x : Row) : ℝ := x 2 * k2 x

/-- Sum bits: a half adder at positions 7 … 1, the adder with constant bit 1 at position 0. -/
def s7 (x : Row) : ℝ := x 8 + 1 - 2 * k7 x
def s6 (x : Row) : ℝ := x 7 + k7 x - 2 * k6 x
def s5 (x : Row) : ℝ := x 6 + k6 x - 2 * k5 x
def s4 (x : Row) : ℝ := x 5 + k5 x - 2 * k4 x
def s3 (x : Row) : ℝ := x 4 + k4 x - 2 * k3 x
def s2 (x : Row) : ℝ := x 3 + k3 x - 2 * k2 x
def s1 (x : Row) : ℝ := x 2 + k2 x - 2 * k1 x
def s0 (x : Row) : ℝ := 1 - x 1 - k1 x + 2 * (x 1 * k1 x)

/-- "The top five bits of the shift are all zero". -/
def hz (x : Row) : ℝ := (1 - s0 x) * (1 - s1 x) * (1 - s2 x) * (1 - s3 x) * (1 - s4 x)

/-- "The shift is 0, 1, 2, 3, 4": the low three bits decoded under `hz`. -/
def is0 (x : Row) : ℝ := hz x * (1 - s5 x) * (1 - s6 x) * (1 - s7 x)
def is1 (x : Row) : ℝ := hz x * (1 - s5 x) * (1 - s6 x) * s7 x
def is2 (x : Row) : ℝ := hz x * (1 - s5 x) * s6 x * (1 - s7 x)
def is3 (x : Row) : ℝ := hz x * (1 - s5 x) * s6 x * s7 x
def is4 (x : Row) : ℝ := hz x * s5 x * (1 - s6 x) * (1 - s7 x)

/-- OR as a polynomial. -/
def orr (p q : ℝ) : ℝ := p + q - p * q

/-- Result bit b (b = 0 the least significant): the implicit one when the shift is b, else mantissa bit
    shift - 1 - b when the shift is larger. -/
def bit0 (x : Row) : ℝ := orr (orr (orr (orr (is0 x) (is1 x * x 9)) (is2 x * x 10)) (is3 x * x 11)) (is4 x * x 12)
def bit1 (x : Row) : ℝ := orr (orr (orr (is1 x) (is2 x * x 9)) (is3 x * x 10)) (is4 x * x 11)
def bit2 (x : Row) : ℝ := orr (orr (is2 x) (is3 x * x 9)) (is4 x * x 10)
def bit3 (x : Row) : ℝ := orr (is3 x) (is4 x * x 9)
def bit4 (x : Row) : ℝ := is4 x

/-- The five results of one batch element, most significant first. -/
def outBit (x : Row) : Fin 5 → ℝ := ![bit4 x, bit3 x, bit2 x, bit1 x, bit0 x]

/-! ## The whole result -/

/-- The result both programs end with, for an argument of reals: entry (a, b, j) is result j, most significant
    first, of batch element (a, b). -/
def result (r : (⟨3, ![2048, 1024, 32]⟩ : Shape).Idx → ℝ) : (⟨3, ![2048, 1024, 5]⟩ : Shape).Idx → EReal :=
  fun i => ((outBit (fun k => r (ix3 (i 0) (i 1) k)) (i 2) : ℝ) : EReal)

end Cert.Spike

end
-- ==== Proof.Layout.lean ====
/-
  Where each element sits: the re-layings of the two programs, read at an index.

  The kernel regroups the 2048 × 1024 batch elements as 16384 rows of 128 lanes, takes 128 rows at a time, and inside a
  block moves the value index onto the middle axis so that value k of every batch element of the block is one
  128 × 128 plane; it stacks the five result planes along a new leading axis, and afterwards moves that axis last
  and regroups to 2048 × 1024. The reference slices the last axis and concatenates five width-one results along it.
  Every lemma here is about indices only and holds for any element type.
-/
import Idealize.ShloMosaic.Lib.Pipeline.Value
import Idealize.ShloMosaic.Lib.ValueIdx

noncomputable section

namespace Cert.Spike

open Idealize.ShloMosaic Idealize.ShloMosaic.ValueIdx

/-- A block of the regrouped input, the same with the value axis in the middle, one plane of it, and a plane. -/
abbrev Blk : Shape := ⟨3, ![128, 128, 32]⟩
abbrev BlkT : Shape := ⟨3, ![128, 32, 128]⟩
abbrev Plane1 : Shape := ⟨3, ![128, 1, 128]⟩
abbrev Plane : Shape := ⟨2, ![128, 128]⟩
/-- A plane under a leading unit axis, and the five-plane block the body stores. -/
abbrev UPlane : Shape := ⟨3, ![1, 128, 128]⟩
abbrev OBlk : Shape := ⟨3, ![5, 128, 128]⟩

variable {α : Type}

/-- Plane `o` of a block: row b, lane l of it is value o of the block's element (b, l). -/
theorem bitPlane (x : Blk.Idx → α) (o : Nat) (ho : o < 32)
    (h1 : Blk.ShapeCasts Blk) (h2 : Blk.Transposes [0, 2, 1] BlkT) (h3 : BlkT.Slices ![0, o, 0] Plane1)
    (h4 : Plane1.ShapeCasts Plane) (b l : Fin 128) :
    shapeCast Plane (extractStridedSlice Plane1 ![0, o, 0] (transpose BlkT [0, 2, 1] (shapeCast Blk x h1) h2) h3) h4 (ix2 b l)
      = x (ix3 b l ⟨o, ho⟩) := by
  refine (shapeCast_apply _ h4 (ix2 b l) (ix3 b ⟨0, by omega⟩ l) ?_).trans ?_
  · rw [Shape.rowMajor_val_three, Shape.rowMajor_val_two]
    show (b.val * 1 + 0) * 128 + l.val = b.val * 128 + l.val
    omega
  refine (extractStridedSlice_apply _ _ h3 (ix3 b ⟨0, by omega⟩ l) (ix3 b ⟨o, ho⟩ l) ?_).trans ?_
  · intro a
    match a with
    | ⟨0, _⟩ => show b.val = 0 + b.val; omega
    | ⟨1, _⟩ => show o = o + 0; omega
    | ⟨2, _⟩ => show l.val = 0 + l.val; omega
  refine (transpose_apply [0, 2, 1] _ h2 (ix3 b ⟨o, ho⟩ l) (ix3 b l ⟨o, ho⟩) ?_).trans ?_
  · intro a
    match a with
    | ⟨0, _⟩ => rfl
    | ⟨1, _⟩ => rfl
    | ⟨2, _⟩ => rfl
  rw [shapeCast_self]

/-- Five planes, each under a leading unit axis, as the pieces of a concatenation. -/
abbrev planes5 (v : Fin 5 → Plane.Idx → α) (hc : Plane.ShapeCasts UPlane) : List ((s : Shape) × (s.Idx → α)) :=
  [⟨UPlane, shapeCast UPlane (v 0) hc⟩, ⟨UPlane, shapeCast UPlane (v 1) hc⟩, ⟨UPlane, shapeCast UPlane (v 2) hc⟩,
    ⟨UPlane, shapeCast UPlane (v 3) hc⟩, ⟨UPlane, shapeCast UPlane (v 4) hc⟩]

/-- The stored block is its five planes stacked: entry (j, b, l) is plane j at (b, l). -/
theorem stack5 (v : Fin 5 → Plane.Idx → α) (hc : Plane.ShapeCasts UPlane)
    (hcat : Shape.Concatenates [UPlane, UPlane, UPlane, UPlane, UPlane] OBlk 0) (j : Fin 5) (b l : Fin 128) :
    concatenate OBlk 0 (planes5 v hc) hcat (ix3 j b l) = v j (ix2 b l) := by
  have key : ∀ (n : Nat) (hn : n < 5) (w : Plane.Idx → α)
      (hx : (planes5 v hc)[n]'(by simpa using hn) = ⟨UPlane, shapeCast UPlane w hc⟩)
      (hp : ((((planes5 v hc).take n).map (·.1)).map
          fun s => if h : s.rank = OBlk.rank then s.size ((0 : Fin OBlk.rank).cast h.symm) else 0).sum = n),
      concatenate OBlk 0 (planes5 v hc) hcat (ix3 ⟨n, hn⟩ b l) = w (ix2 b l) := by
    intro n hn w hx hp
    refine (concatenate_apply_piece (0 : Fin OBlk.rank) (planes5 v hc) hcat (ix3 ⟨n, hn⟩ b l) n (by simpa using hn) UPlane _ hx rfl n hp
      (ix3 ⟨0, by omega⟩ b l) ?_ ?_).trans ?_
    · intro a ha
      match a with
      | ⟨0, _⟩ => exact absurd rfl ha
      | ⟨1, _⟩ => rfl
      | ⟨2, _⟩ => rfl
    · show n + 0 = n; omega
    · refine (shapeCast_addUnit_apply ![128, 128] w hc (ix3 ⟨0, by omega⟩ b l)).trans ?_
      refine congrArg w (funext fun a => ?_)
      match a with
      | ⟨0, _⟩ => rfl
      | ⟨1, _⟩ => rfl
  match j with
  | ⟨0, h⟩ => exact key 0 h (v 0) rfl rfl
  | ⟨1, h⟩ => exact key 1 h (v 1) rfl rfl
  | ⟨2, h⟩ => exact key 2 h (v 2) rfl rfl
  | ⟨3, h⟩ => exact key 3 h (v 3) rfl rfl
  | ⟨4, h⟩ => exact key 4 h (v 4) rfl rfl

end Cert.Spike

end
-- ==== Proof.KernelBody.lean ====
/-
  What the kernel's body stores for one block, when the block holds finite values.

  The body moves the value axis of its 128 × 128 × 32 block to the middle, so that value k of all 128 × 128 batch
  elements is one plane, and then works plane by plane: carries and sum bits of e + 10000000b + 1 from the low end
  (a half adder at positions 7 … 1, the adder with constant bit 1 at position 0), the decoded shifts, the five
  result bits, stacked most significant first. On real-valued planes each of its planes is, element by element, the
  polynomial of Spec.lean of that element's 32 values.
-/
import proofs.«151646_j43860206027307_2_alg».proof.Proof.Gen.KernelIdeal.Frame
import proofs.«151646_j43860206027307_2_alg».proof.Proof.LibRealArray
import proofs.«151646_j43860206027307_2_alg».proof.Proof.Spec
import proofs.«151646_j43860206027307_2_alg».proof.Proof.Layout

noncomputable section

namespace Cert.Spike.Body

open Idealize.ShloMosaic Idealize.ShloMosaic.ValueIdx Cert.KernelIdeal Cert.KernelIdeal.Gen Cert.Spike
open Cert.RealArray
/-- The 32 values of the block's batch element at row `i 0`, lane `i 1`. -/
def rowB (r : S128x128x32.Idx → ℝ) (i : S128x128.Idx) : Row := fun k => r (ix3 (i 0) (i 1) k)

variable (r : S128x128x32.Idx → ℝ)

/-! ## The planes the body reads: value k of every batch element of the block -/

theorem plane (o : Nat) (ho : o < 32) (h3 : S128x32x128.Slices ![0, o, 0] S128x1x128) :
    shapeCast S128x128 (extractStridedSlice S128x1x128 ![0, o, 0] (k0_pay1 (F := Ideal) (cv r)) h3) shapeCasts_S128x1x128_S128x128
      = cv (fun i => rowB r i ⟨o, ho⟩) := by
  funext i
  obtain ⟨b, l, rfl⟩ : ∃ (b l : Fin 128), i = ix2 b l := ⟨i 0, i 1, eq_ix2 i⟩
  exact bitPlane (cv r) o ho _ _ h3 _ b l

theorem pay3 : k0_pay3 (F := Ideal) (cv r) = cv (fun i => rowB r i 1) := plane r 1 (by omega) _
theorem pay4 : k0_pay4 (F := Ideal) (cv r) = cv (fun i => rowB r i 2) := plane r 2 (by omega) _
theorem pay5 : k0_pay5 (F := Ideal) (cv r) = cv (fun i => rowB r i 3) := plane r 3 (by omega) _
theorem pay6 : k0_pay6 (F := Ideal) (cv r) = cv (fun i => rowB r i 4) := plane r 4 (by omega) _
theorem pay7 : k0_pay7 (F := Ideal) (cv r) = cv (fun i => rowB r i 5) := plane r 5 (by omega) _
theorem pay8 : k0_pay8 (F := Ideal) (cv r) = cv (fun i => rowB r i 6) := plane r 6 (by omega) _
theorem pay9 : k0_pay9 (F := Ideal) (cv r) = cv (fun i => rowB r i 7) := plane r 7 (by omega) _
theorem pay10 : k0_pay10 (F := Ideal) (cv r) = cv (fun i => rowB r i 8) := plane r 8 (by omega) _
theorem pay11 : k0_pay11 (F := Ideal) (cv r) = cv (fun i => rowB r i 9) := plane r 9 (by omega) _
theorem pay12 : k0_pay12 (F := Ideal) (cv r) = cv (fun i => rowB r i 10) := plane r 10 (by omega) _
theorem pay13 : k0_pay13 (F := Ideal) (cv r) = cv (fun i => rowB r i 11) := plane r 11 (by omega) _
theorem pay14 : k0_pay14 (F := Ideal) (cv r) = cv (fun i => rowB r i 12) := plane r 12 (by omega) _

/-! ## The ripple carry, from the low end -/

theorem pay15 : k0_pay15 (F := Ideal) (cv r) = cv (fun i => k7 (rowB r i)) := by
  simp only [k0_pay15, k0_pay2, pay10, broadcast_one, mulf_cv]
  exact cv_congr fun i => rfl

theorem pay16 : k0_pay16 (F := Ideal) (cv r) = cv (fun i => s7 (rowB r i)) := by
  simp only [k0_pay16, k0_pay2, pay10, pay15, broadcast_one, broadcast_two, mulf_cv, addf_cv, subf_cv]
  exact cv_congr fun i => rfl

theorem pay17 : k0_pay17 (F := Ideal) (cv r) = cv (fun i => k6 (rowB r i)) := by
  simp only [k0_pay17, pay9, pay15, mulf_cv]
  exact cv_congr fun i => rfl

theorem pay18 : k0_pay18 (F := Ideal) (cv r) = cv (fun i => s6 (rowB r i)) := by
  simp only [k0_pay18, pay9, pay15, pay17, broadcast_two, mulf_cv, addf_cv, subf_cv]
  exact cv_congr fun i => rfl

theorem pay19 : k0_pay19 (F := Ideal) (cv r) = cv (fun i => k5 (rowB r i)) := by
  simp only [k0_pay19, pay8, pay17, mulf_cv]
  exact cv_congr fun i => rfl

theorem pay20 : k0_pay20 (F := Ideal) (cv r) = cv (fun i => s5 (rowB r i)) := by
  simp only [k0_pay20, pay8, pay17, pay19, broadcast_two, mulf_cv, addf_cv, subf_cv]
  exact cv_congr fun i => rfl

theorem pay21 : k0_pay21 (F := Ideal) (cv r) = cv (fun i => k4 (rowB r i)) := by
  simp only [k0_pay21, pay7, pay19, mulf_cv]
  exact cv_congr fun i => rfl

theorem pay22 : k0_pay22 (F := Ideal) (cv r) = cv (fun i => s4 (rowB r i)) := by
  simp only [k0_pay22, pay7, pay19, pay21, broadcast_two, mulf_cv, addf_cv, subf_cv]
  exact cv_congr fun i => rfl

theorem pay23 : k0_pay23 (F := Ideal) (cv r) = cv (fun i => k3 (rowB r i)) := by
  simp only [k0_pay23, pay6, pay21, mulf_cv]
  exact cv_congr fun i => rfl

theorem pay24 : k0_pay24 (F := Ideal) (cv r) = cv (fun i => rowB r i 4 + k4 (rowB r i)) := by
  simp only [k0_pay24, pay6, pay21, addf_cv]

/-! ## The shift's top five bits are zero; its low three, negated -/

theorem pay28 : k0_pay28 (F := Ideal) (k0_pay3 (cv r)) (k0_pay4 (cv r)) (k0_pay5 (cv r)) (k0_pay22 (cv r)) (k0_pay23 (cv r))
      (k0_pay24 (cv r)) (Scalar.ofBits .f32 0x40000000#32) = cv (fun i => hz (rowB r i)) := by
  simp only [k0_pay28, pay3, pay4, pay5, pay22, pay23, pay24, broadcast_one, broadcast_two, mulf_cv, addf_cv, subf_cv]
  exact cv_congr fun i => rfl

theorem pay25 : k0_pay25 (F := Ideal) (k0_pay20 (cv r)) = cv (fun i => 1 - s5 (rowB r i)) := by
  simp only [k0_pay25, pay20, broadcast_one, subf_cv]

theorem pay26 : k0_pay26 (F := Ideal) (k0_pay18 (cv r)) = cv (fun i => 1 - s6 (rowB r i)) := by
  simp only [k0_pay26, pay18, broadcast_one, subf_cv]

theorem pay27 : k0_pay27 (F := Ideal) (k0_pay16 (cv r)) = cv (fun i => 1 - s7 (rowB r i)) := by
  simp only [k0_pay27, pay16, broadcast_one, subf_cv]

/-! ## The decoded shifts -/

theorem pay29 : k0_pay29 (F := Ideal) (k0_pay3 (cv r)) (k0_pay4 (cv r)) (k0_pay5 (cv r)) (k0_pay16 (cv r)) (k0_pay18 (cv r))
      (k0_pay20 (cv r)) (k0_pay22 (cv r)) (k0_pay23 (cv r)) (k0_pay24 (cv r)) (Scalar.ofBits .f32 0x40000000#32)
      = cv (fun i => is0 (rowB r i)) := by
  simp only [k0_pay29, pay28, pay25, pay26, pay27, mulf_cv]
  exact cv_congr fun i => rfl

theorem pay30 : k0_pay30 (F := Ideal) (k0_pay3 (cv r)) (k0_pay4 (cv r)) (k0_pay5 (cv r)) (k0_pay16 (cv r)) (k0_pay18 (cv r))
      (k0_pay20 (cv r)) (k0_pay22 (cv r)) (k0_pay23 (cv r)) (k0_pay24 (cv r)) (Scalar.ofBits .f32 0x40000000#32)
      = cv (fun i => is1 (rowB r i)) := by
  unfold k0_pay30
  rw [pay28, pay25, pay26, pay16]
  simp only [mulf_cv]
  exact cv_congr fun i => rfl

theorem pay31 : k0_pay31 (F := Ideal) (k0_pay3 (cv r)) (k0_pay4 (cv r)) (k0_pay5 (cv r)) (k0_pay18 (cv r))
      (k0_pay20 (cv r)) (k0_pay22 (cv r)) (k0_pay23 (cv r)) (k0_pay24 (cv r)) (Scalar.ofBits .f32 0x40000000#32)
      = cv (fun i => hz (rowB r i) * (1 - s5 (rowB r i)) * s6 (rowB r i)) := by
  unfold k0_pay31
  rw [pay28, pay25, pay18]
  simp only [mulf_cv]

/-! ## The five result planes, and the stored block -/

/-- The result planes of a block, most significant first. -/
def bits (r : S128x128x32.Idx → ℝ) : Fin 5 → S128x128.Idx → EReal :=
  ![cv (fun i => bit4 (rowB r i)), cv (fun i => bit3 (rowB r i)), cv (fun i => bit2 (rowB r i)),
    cv (fun i => bit1 (rowB r i)), cv (fun i => bit0 (rowB r i))]

theorem pay32 : k0_pay32 (F := Ideal) (k0_pay11 (cv r)) (k0_pay12 (cv r)) (k0_pay13 (cv r)) (k0_pay14 (cv r)) (k0_pay16 (cv r))
      (k0_pay18 (cv r)) (k0_pay20 (cv r)) (k0_pay25 (k0_pay20 (cv r))) (k0_pay26 (k0_pay18 (cv r))) (k0_pay27 (k0_pay16 (cv r)))
      (k0_pay28 (k0_pay3 (cv r)) (k0_pay4 (cv r)) (k0_pay5 (cv r)) (k0_pay22 (cv r)) (k0_pay23 (cv r)) (k0_pay24 (cv r)) (Scalar.ofBits .f32 0x40000000#32))
      (k0_pay29 (k0_pay3 (cv r)) (k0_pay4 (cv r)) (k0_pay5 (cv r)) (k0_pay16 (cv r)) (k0_pay18 (cv r)) (k0_pay20 (cv r)) (k0_pay22 (cv r)) (k0_pay23 (cv r)) (k0_pay24 (cv r)) (Scalar.ofBits .f32 0x40000000#32))
      (k0_pay30 (k0_pay3 (cv r)) (k0_pay4 (cv r)) (k0_pay5 (cv r)) (k0_pay16 (cv r)) (k0_pay18 (cv r)) (k0_pay20 (cv r)) (k0_pay22 (cv r)) (k0_pay23 (cv r)) (k0_pay24 (cv r)) (Scalar.ofBits .f32 0x40000000#32))
      (k0_pay31 (k0_pay3 (cv r)) (k0_pay4 (cv r)) (k0_pay5 (cv r)) (k0_pay18 (cv r)) (k0_pay20 (cv r)) (k0_pay22 (cv r)) (k0_pay23 (cv r)) (k0_pay24 (cv r)) (Scalar.ofBits .f32 0x40000000#32))
      = concatenate S5x128x128 0 (planes5 (bits r) shapeCasts_S128x128_S1x128x128)
          concatenates_S1x128x128_S1x128x128_S1x128x128_S1x128x128_S1x128x128_S5x128x128_d0 := by
  rw [pay29, pay30, pay31, pay28, pay25, pay26, pay27, pay11, pay12, pay13, pay14, pay16, pay18, pay20]
  unfold k0_pay32
  simp only [mulf_cv, addf_cv, subf_cv]
  rfl

theorem zeros3 : (![0, 0, 0] : Fin 3 → Nat) = fun _ => 0 := funext fun a => by fin_cases a <;> rfl

/-- What the body leaves in the output block for a block of finite values: entry (j, b, l) is result j of the
    block's batch element (b, l). -/
theorem out_block (j : Fin 5) (b l : Fin 128) :
    out0_1 (F := Ideal) (cv r) (ix3 j b l) = ((outBit (rowB r (ix2 b l)) j : ℝ) : EReal) := by
  unfold out0_1
  rw [View.canon_unit_zero zeros3]
  simp only [View.ld_unit_zero (S := S128x128x32) zeros3]
  rw [pay32]
  refine (stack5 (bits r) _ _ j b l).trans ?_
  match j with
  | ⟨0, _⟩ => rfl
  | ⟨1, _⟩ => rfl
  | ⟨2, _⟩ => rfl
  | ⟨3, _⟩ => rfl
  | ⟨4, _⟩ => rfl

end Cert.Spike.Body

end
-- ==== Proof.Regroup.lean ====
/-
  More re-layings read at an index: the reference's slices of the last axis and its concatenation along it, and the
  kernel program's regrouping of the batch before the region (2048 × 1024 batch elements as 16384 rows of 128 lanes)
  and after it (the five result planes moved last, then back to 2048 × 1024). Batch element (a, b) is row M, lane l
  exactly when a · 1024 + b = M · 128 + l. Indices only; any element type.
-/
import Idealize.ShloMosaic.Lib.Pipeline.Value
import Idealize.ShloMosaic.Lib.ValueIdx

noncomputable section

namespace Cert.Spike

open Idealize.ShloMosaic Idealize.ShloMosaic.ValueIdx

abbrev X32 : Shape := ⟨3, ![2048, 1024, 32]⟩
abbrev X8 : Shape := ⟨3, ![2048, 1024, 8]⟩
abbrev X1 : Shape := ⟨3, ![2048, 1024, 1]⟩
abbrev X5 : Shape := ⟨3, ![2048, 1024, 5]⟩
abbrev G32 : Shape := ⟨3, ![16384, 128, 32]⟩
abbrev P5 : Shape := ⟨3, ![5, 16384, 128]⟩
abbrev G5 : Shape := ⟨3, ![16384, 128, 5]⟩
abbrev F5 : Shape := ⟨2, ![2097152, 5]⟩

variable {α : Type}

/-! ## The reference: slices of the last axis -/

/-- Value o of every batch element, as a width-one array. -/
theorem slice32_1 (x : X32.Idx → α) (o : Nat) (ho : o < 32) (h : X32.Slices ![0, 0, o] X1) (a : Fin 2048) (b : Fin 1024) (z : Fin 1) :
    extractStridedSlice X1 ![0, 0, o] x h (ix3 a b z) = x (ix3 a b ⟨o, ho⟩) := by
  refine extractStridedSlice_apply _ x h (ix3 a b z) (ix3 a b ⟨o, ho⟩) ?_
  intro c
  match c with
  | ⟨0, _⟩ => show a.val = 0 + a.val; omega
  | ⟨1, _⟩ => show b.val = 0 + b.val; omega
  | ⟨2, _⟩ => show o = o + z.val; omega

/-- The eight exponent values: value d of the slice is value 1 + d. -/
theorem slice32_8 (x : X32.Idx → α) (h : X32.Slices ![0, 0, 1] X8) (a : Fin 2048) (b : Fin 1024) (d : Fin 8) :
    extractStridedSlice X8 ![0, 0, 1] x h (ix3 a b d) = x (ix3 a b ⟨1 + d.val, by omega⟩) := by
  refine extractStridedSlice_apply _ x h (ix3 a b d) (ix3 a b ⟨1 + d.val, by omega⟩) ?_
  intro c
  match c with
  | ⟨0, _⟩ => show a.val = 0 + a.val; omega
  | ⟨1, _⟩ => show b.val = 0 + b.val; omega
  | ⟨2, _⟩ => rfl

/-- One of the eight, as a width-one array. -/
theorem slice8_1 (y : X8.Idx → α) (o : Nat) (ho : o < 8) (h : X8.Slices ![0, 0, o] X1) (a : Fin 2048) (b : Fin 1024) (z : Fin 1) :
    extractStridedSlice X1 ![0, 0, o] y h (ix3 a b z) = y (ix3 a b ⟨o, ho⟩) := by
  refine extractStridedSlice_apply _ y h (ix3 a b z) (ix3 a b ⟨o, ho⟩) ?_
  intro c
  match c with
  | ⟨0, _⟩ => show a.val = 0 + a.val; omega
  | ⟨1, _⟩ => show b.val = 0 + b.val; omega
  | ⟨2, _⟩ => show o = o + z.val; omega

/-! ## The reference: five width-one results side by side -/

abbrev cols5 (u : Fin 5 → X1.Idx → α) : List ((s : Shape) × (s.Idx → α)) :=
  [⟨X1, u 0⟩, ⟨X1, u 1⟩, ⟨X1, u 2⟩, ⟨X1, u 3⟩, ⟨X1, u 4⟩]

/-- Entry (a, b, j) of the concatenation is piece j at (a, b). -/
theorem cat5 (u : Fin 5 → X1.Idx → α) (hcat : Shape.Concatenates [X1, X1, X1, X1, X1] X5 2)
    (a : Fin 2048) (b : Fin 1024) (j : Fin 5) :
    concatenate X5 2 (cols5 u) hcat (ix3 a b j) = u j (ix3 a b ⟨0, by omega⟩) := by
  have key : ∀ (n : Nat) (hn : n < 5) (w : X1.Idx → α)
      (hx : (cols5 u)[n]'(by simpa using hn) = ⟨X1, w⟩)
      (hp : ((((cols5 u).take n).map (·.1)).map
          fun s => if h : s.rank = X5.rank then s.size ((2 : Fin X5.rank).cast h.symm) else 0).sum = n),
      concatenate X5 2 (cols5 u) hcat (ix3 a b ⟨n, hn⟩) = w (ix3 a b ⟨0, by omega⟩) := by
    intro n hn w hx hp
    refine concatenate_apply_piece (2 : Fin X5.rank) (cols5 u) hcat (ix3 a b ⟨n, hn⟩) n (by simpa using hn) X1 w hx rfl n hp
      (ix3 a b ⟨0, by omega⟩) ?_ ?_
    · intro c hc
      match c with
      | ⟨0, _⟩ => rfl
      | ⟨1, _⟩ => rfl
      | ⟨2, _⟩ => exact absurd rfl hc
    · show n + 0 = n; omega
  match j with
  | ⟨0, h⟩ => exact key 0 h (u 0) rfl rfl
  | ⟨1, h⟩ => exact key 1 h (u 1) rfl rfl
  | ⟨2, h⟩ => exact key 2 h (u 2) rfl rfl
  | ⟨3, h⟩ => exact key 3 h (u 3) rfl rfl
  | ⟨4, h⟩ => exact key 4 h (u 4) rfl rfl

/-! ## The kernel program: regrouping the batch -/

/-- Before the region: row M, lane l of the regrouped input is batch element (a, b). -/
theorem regroupIn (x : X32.Idx → α) (h : X32.ShapeCasts G32) (M : Fin 16384) (l : Fin 128) (k : Fin 32)
    (a : Fin 2048) (b : Fin 1024) (hab : a.val * 1024 + b.val = M.val * 128 + l.val) :
    shapeCast G32 x h (ix3 M l k) = x (ix3 a b k) := by
  refine shapeCast_apply x h (ix3 M l k) (ix3 a b k) ?_
  rw [Shape.rowMajor_val_three, Shape.rowMajor_val_three]
  show (a.val * 1024 + b.val) * 32 + k.val = (M.val * 128 + l.val) * 32 + k.val
  rw [hab]

/-- After the region: result j of batch element (a, b) is plane j at row M, lane l. -/
theorem regroupOut (A : P5.Idx → α) (h1 : P5.Transposes [1, 2, 0] G5) (h2 : G5.ShapeCasts F5) (h3 : F5.ShapeCasts X5)
    (a : Fin 2048) (b : Fin 1024) (j : Fin 5) (M : Fin 16384) (l : Fin 128)
    (hab : a.val * 1024 + b.val = M.val * 128 + l.val) :
    shapeCast X5 (shapeCast F5 (transpose G5 [1, 2, 0] A h1) h2) h3 (ix3 a b j) = A (ix3 j M l) := by
  refine (shapeCast_apply _ h3 (ix3 a b j) (ix2 ⟨a.val * 1024 + b.val, by omega⟩ j) ?_).trans ?_
  · rw [Shape.rowMajor_val_two, Shape.rowMajor_val_three]
    show (a.val * 1024 + b.val) * 5 + j.val = (a.val * 1024 + b.val) * 5 + j.val
    rfl
  refine (shapeCast_apply _ h2 (ix2 ⟨a.val * 1024 + b.val, by omega⟩ j) (ix3 M l j) ?_).trans ?_
  · rw [Shape.rowMajor_val_three, Shape.rowMajor_val_two]
    show (M.val * 128 + l.val) * 5 + j.val = (a.val * 1024 + b.val) * 5 + j.val
    rw [hab]
  refine transpose_apply [1, 2, 0] A h1 (ix3 M l j) (ix3 j M l) ?_
  intro c
  match c with
  | ⟨0, _⟩ => rfl
  | ⟨1, _⟩ => rfl
  | ⟨2, _⟩ => rfl

end Cert.Spike

end
-- ==== Proof.KernelValue.lean ====
/-
  The kernel program's result as one function of its argument, when the argument holds finite values.

  Before the region the 2048 × 1024 batch elements are regrouped as 16384 rows of 128 lanes; grid point t takes rows
  128 t … 128 t + 127, and writes the five result planes of those rows to rows 128 t … 128 t + 127 of a 5 × 16384 × 128
  array. The 128 points' blocks tile that array, so after the region it holds, at (j, M, l), result j of the batch
  element in row M, lane l. The operations after the region move j last and regroup back: entry (a, b, j) of the
  program's result is result j of batch element (a, b).
-/
import proofs.«151646_j43860206027307_2_alg».proof.Proof.Gen.KernelIdeal.Frame
import proofs.«151646_j43860206027307_2_alg».proof.Proof.KernelBody
import proofs.«151646_j43860206027307_2_alg».proof.Proof.Regroup
import Idealize.ShloMosaic.Lib.StableHlo.Run

noncomputable section

namespace Cert.Spike.KValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spike Cert.Spike.Body Cert.RealArray

variable (m : (ℓ : Loc nD τ sig) → Buf (Elt Ideal) ℓ) (ρ : Dev nD → PrngReg)

/-- The region finds the regrouped input: the argument in row-major order at 16384 × 128 × 32. -/
theorem V_v0 (c : Dev nD) : (V m c main_v0 : S16384x128x32.Idx → EReal)
    = shapeCast S16384x128x32 (m ((c : Thread nD τ).loc main_arg0)) shapeCasts_S2048x1024x32_S16384x128x32 := by
  show StableHlo.after hostOps0 (fun b => m (c, b)) (Proc.devRef .tc main_v0) = _
  after_results
  rfl

/-! ## The argument as an array of reals -/

variable (r : Dev nD → S2048x1024x32.Idx → ℝ)

/-- The regrouped argument, as reals. -/
def rg (c : Dev nD) : S16384x128x32.Idx → ℝ := shapeCast S16384x128x32 (r c) shapeCasts_S2048x1024x32_S16384x128x32

variable (hx : ∀ c : Dev nD, (m ((c : Thread nD τ).loc main_arg0) : S2048x1024x32.Idx → EReal) = cv (r c))

include hx in
theorem V_v0_cv (c : Dev nD) : (V m c main_v0 : S16384x128x32.Idx → EReal) = cv (rg r c) := by
  rw [V_v0, hx c]; rfl

include hx in
/-- The input block at point t, as reals: the regrouped argument read through the block. -/
theorem iblk_cv (c : Dev nD) (t : Fin cfg0.N) :
    (iblk m c 0 t : S128x128x32.Idx → EReal) = cv (fun y => rg r c (((cfg0.win 0).blk t).view.emb y)) := by
  funext y
  show V m c main_v0 (((cfg0.win 0).blk t).view.emb y) = _
  rw [V_v0_cv m r hx c]; rfl

/-! ## The region's output array -/

/-- What the 5 × 16384 × 128 array holds after the region: at (j, M, l), result j of the batch element in row M, lane l. -/
def G1 (c : Dev nD) : S5x16384x128.Idx → EReal :=
  fun i => ((outBit (fun k => rg r c (ix3 (i 1) (i 2) k)) (i 0) : ℝ) : EReal)

/-- The printed index maps over the 128 points: the input block moves along axis 0, the output block along axis 1. -/
theorem idx_facts : ∀ t : Fin cfg0.N, win0_0.index t (0 : Fin 3) = t.val ∧ win0_0.index t (1 : Fin 3) = 0 ∧ win0_0.index t (2 : Fin 3) = 0
    ∧ win0_1.index t (0 : Fin 3) = 0 ∧ win0_1.index t (1 : Fin 3) = t.val ∧ win0_1.index t (2 : Fin 3) = 0 :=
  (by decide +kernel : ∀ t : Fin grid0.N, _)

/-- The body's stored block for a block cut out of a regrouped array, stated over plain index types: if the input
    block sits at rows 128 T … of the regrouped array (`h0`) and the output block at rows 128 T … of the output array
    (`h1`), entry y of the stored block is `G1`'s entry at y's place in the output array. -/
theorem block_eq (rgc : S16384x128x32.Idx → ℝ) (T : Nat) (hT : T < 128)
    (emb0 : S128x128x32.Idx → S16384x128x32.Idx) (emb1 : S5x128x128.Idx → S5x16384x128.Idx)
    (h0 : ∀ (b l : Fin 128) (k : Fin 32), emb0 (ix3 b l k) = ix3 ⟨T * 128 + b.val, by omega⟩ l k)
    (h1 : ∀ (j : Fin 5) (b l : Fin 128), emb1 (ix3 j b l) = ix3 j ⟨T * 128 + b.val, by omega⟩ l)
    (y : S5x128x128.Idx) :
    out0_1 (F := Ideal) (cv (fun y' => rgc (emb0 y'))) y
      = ((outBit (fun k => rgc (ix3 (emb1 y 1) (emb1 y 2) k)) (emb1 y 0) : ℝ) : EReal) := by
  obtain ⟨j, b, l, rfl⟩ : ∃ (j : Fin 5) (b l : Fin 128), y = ix3 j b l := ⟨y 0, y 1, y 2, eq_ix3 y⟩
  rw [out_block, h1]
  show ((outBit (fun k => rgc (emb0 (ix3 b l k))) j : ℝ) : EReal)
    = ((outBit (fun k => rgc (ix3 ⟨T * 128 + b.val, by omega⟩ l k)) j : ℝ) : EReal)
  simp only [h0]

include hx in
/-- What point t writes back is block t of `G1`. -/
theorem flushed_eq (c : Dev nD) (t : Fin cfg0.N) :
    (dats m 0 c).flushed 1 t = ((cfg0.win 1).blk t).view.read (Elt Ideal) (G1 r c) := by
  show (cfg0.win 1).cut (grid0.coords t) ((dats m 0 c).after 1 t) = _
  rw [after0_1, iblk_cv m r hx c t]
  obtain ⟨f0, f1, f2, g0, g1, g2⟩ := idx_facts t
  have ht : t.val < 128 := t.isLt
  funext y
  refine block_eq (rg r c) t.val ht (fun y' => ((cfg0.win 0).blk t).view.emb y') (fun y' => ((cfg0.win 1).blk t).view.emb y') ?_ ?_ y
  · intro b l k
    funext a; apply Fin.ext
    match a with
    | ⟨0, _⟩ => show win0_0.index t (0 : Fin 3) * 128 + 1 * b.val = t.val * 128 + b.val; omega
    | ⟨1, _⟩ => show win0_0.index t (1 : Fin 3) * 128 + 1 * l.val = l.val; omega
    | ⟨2, _⟩ => show win0_0.index t (2 : Fin 3) * 32 + 1 * k.val = k.val; omega
  · intro j b l
    funext a; apply Fin.ext
    match a with
    | ⟨0, _⟩ => show win0_1.index t (0 : Fin 3) * 5 + 1 * j.val = j.val; omega
    | ⟨1, _⟩ => show win0_1.index t (1 : Fin 3) * 128 + 1 * b.val = t.val * 128 + b.val; omega
    | ⟨2, _⟩ => show win0_1.index t (2 : Fin 3) * 128 + 1 * l.val = l.val; omega

/-- An index of the output array is in point t's block iff each coordinate is in the block's range on its axis. -/
theorem mem_blk (t : Fin cfg0.N) (i : S5x16384x128.Idx) :
    i ∈ ((cfg0.win 1).blk t).view.set ↔ ∀ a : Fin 3, win0_1.index t a * S5x128x128.size a ≤ (i a).val
      ∧ (i a).val < win0_1.index t a * S5x128x128.size a + S5x128x128.size a := by
  show i ∈ ((View.whole main_v1).slice (win0_1.rect t)).set ↔ _
  rw [View.set_slice_whole, Rect.mem_set_unit]
  exact Iff.rfl

/-- The 128 blocks tile the array: row M is in the block of point M / 128. -/
theorem cover (i : S5x16384x128.Idx) :
    ∃ t : Fin cfg0.N, (cfg0.win 1).flush t = true ∧ i ∈ ((cfg0.win 1).blk t).view.set := by
  have h0 : (i 0).val < 5 := (i 0).isLt
  have h1 : (i 1).val < 16384 := (i 1).isLt
  have h2 : (i 2).val < 128 := (i 2).isLt
  have hN : (i 1).val / 128 < cfg0.N := by show (i 1).val / 128 < 128; omega
  refine ⟨⟨(i 1).val / 128, hN⟩, flush0_1 _, ?_⟩
  obtain ⟨f0, f1, f2, g0, g1, g2⟩ := idx_facts ⟨(i 1).val / 128, hN⟩
  have g1' : win0_1.index ⟨(i 1).val / 128, hN⟩ (1 : Fin 3) = (i 1).val / 128 := g1
  rw [mem_blk]
  intro a
  match a with
  | ⟨0, _⟩ =>
    show win0_1.index ⟨(i 1).val / 128, hN⟩ (0 : Fin 3) * 5 ≤ (i 0).val ∧ (i 0).val < win0_1.index ⟨(i 1).val / 128, hN⟩ (0 : Fin 3) * 5 + 5
    omega
  | ⟨1, _⟩ =>
    show win0_1.index ⟨(i 1).val / 128, hN⟩ (1 : Fin 3) * 128 ≤ (i 1).val ∧ (i 1).val < win0_1.index ⟨(i 1).val / 128, hN⟩ (1 : Fin 3) * 128 + 128
    omega
  | ⟨2, _⟩ =>
    show win0_1.index ⟨(i 1).val / 128, hN⟩ (2 : Fin 3) * 128 ≤ (i 2).val ∧ (i 2).val < win0_1.index ⟨(i 1).val / 128, hN⟩ (2 : Fin 3) * 128 + 128
    omega

include hx in
/-- The output array after the region. -/
theorem final (c : Dev nD) : (dats m 0 c).arrAt 1 cfg0.N = G1 r c :=
  (dats m 0 c).arrAt_eq_of_cover 1 (G1 r c) (fun t _ => flushed_eq m r hx c t) cover

/-! ## After the region -/

include hx in
/-- The program's result buffer after the run: the three operations after the region applied to the region's output
    array, read at (a, b, j) — batch element (a, b) sits in row M = (1024 a + b) / 128, lane l = (1024 a + b) % 128. -/
theorem tail_eq (c : Dev nD) :
    (Pipeline.afterTail₀ cfgs (dats m) 0 (V0 m) [hostOps1] c main_v4 : S2048x1024x5.Idx → EReal) = result (r c) := by
  unfold Pipeline.afterTail₀
  show StableHlo.after hostOps1 _ (Proc.devRef .tc main_v4) = _
  after_results
  have hA : Pipeline.withArrays (cfgs 0).spec c (V0 m c) (fun w => (dats m 0 c).arrAt w (cfgs 0).N) (Proc.devRef .tc main_v1)
      = G1 r c := (Pipeline.withArrays_arr spec0 launch0.win.arr_inj c _ _ 1).trans (final m r hx c)
  rw [hA]
  funext i
  obtain ⟨a, b, j, rfl⟩ : ∃ (a : Fin 2048) (b : Fin 1024) (j : Fin 5), i = ix3 a b j := ⟨i 0, i 1, i 2, eq_ix3 i⟩
  have hM : (a.val * 1024 + b.val) / 128 < 16384 := by omega
  have hl : (a.val * 1024 + b.val) % 128 < 128 := Nat.mod_lt _ (by omega)
  have hab : a.val * 1024 + b.val = (⟨(a.val * 1024 + b.val) / 128, hM⟩ : Fin 16384).val * 128
      + (⟨(a.val * 1024 + b.val) % 128, hl⟩ : Fin 128).val := by
    show a.val * 1024 + b.val = (a.val * 1024 + b.val) / 128 * 128 + (a.val * 1024 + b.val) % 128
    omega
  refine (regroupOut (G1 r c) _ _ _ a b j ⟨(a.val * 1024 + b.val) / 128, hM⟩ ⟨(a.val * 1024 + b.val) % 128, hl⟩ hab).trans ?_
  have hin : ∀ k : Fin 32, rg r c (ix3 ⟨(a.val * 1024 + b.val) / 128, hM⟩ ⟨(a.val * 1024 + b.val) % 128, hl⟩ k) = r c (ix3 a b k) :=
    fun k => regroupIn (r c) _ _ _ k a b hab
  show ((outBit (fun k => rg r c (ix3 ⟨(a.val * 1024 + b.val) / 128, hM⟩ ⟨(a.val * 1024 + b.val) % 128, hl⟩ k)) j : ℝ) : EReal)
    = ((outBit (fun k => r c (ix3 a b k)) j : ℝ) : EReal)
  simp only [hin]

/-! ## The run -/

include hx in
/-- Every weakly fair execution of the kernel program from `m` terminates with its result at `result` of the argument
    and the argument unchanged. -/
theorem run : θ_run defs (onTc (τ := τ) (main (F := Ideal))) ⟨m, fun _ => 0, ρ⟩ (fun res => ∀ c : Dev nD,
      res.2.mem ((c.tc : Thread nD τ).loc main_v4) = result (r c)
      ∧ res.2.mem ((c.tc : Thread nD τ).loc main_arg0) = m ((c.tc : Thread nD τ).loc main_arg0)) :=
  (θ_run defs _ _).mono (fun _ h c =>
    ⟨((h c).2 main_v4 (Pipeline.mem_restRefs_of main_v4 (by decide) (by decide))).trans (tail_eq m r hx c),
     ((h c).2 main_arg0 (Pipeline.mem_restRefs_of main_arg0 (by decide) (by decide))).trans (W_main_arg0 m (dats m) c)⟩)
    (run_main m ρ)

end Cert.Spike.KValue

end
-- ==== Proof.RefValue.lean ====
/-
  The reference's result as the same function of its argument, when the argument holds finite values.

  The reference works on width-one arrays, one value per batch element: it slices the eight exponent values and four
  mantissa values out of the last axis, runs the general full adder — sum a + b + c - 2 (ab + ac + bc) + 4 abc, carry
  ab + ac + bc - 2 abc — with the constant's bit b an array of zeros at positions 7 … 1 and of ones at position 0,
  decodes the shift, and concatenates the five result bits along the last axis. With b = 0 the adder's sum and carry
  are a + c - 2 a c and a c; with b = 1 they are 1 - a - c + 2 a c and a + c - a c: identities of polynomials, which is
  where the two programs meet. Each stage below re-expresses one named intermediate array of the reference as the
  polynomial of Spec.lean, so that no stage ever expands the stages before it.
-/
import proofs.«151646_j43860206027307_2_alg».proof.Proof.Gen.ReferenceIdeal.Run
import proofs.«151646_j43860206027307_2_alg».proof.Proof.LibRealArray
import proofs.«151646_j43860206027307_2_alg».proof.Proof.Spec
import proofs.«151646_j43860206027307_2_alg».proof.Proof.Regroup

noncomputable section

namespace Cert.Spike.Ref

open Idealize.ShloMosaic Idealize.ShloMosaic.TcCoe Idealize.ShloMosaic.ValueIdx Idealize.ShloMosaic.StableHlo
open Cert.ReferenceIdeal Cert.ReferenceIdeal.Gen Cert.ReferenceIdeal.Value Cert.Spike Cert.RealArray

/-- The 32 values of batch element (i 0, i 1). -/
def rowR (r : S2048x1024x32.Idx → ℝ) (i : S2048x1024x1.Idx) : Row := fun k => r (ix3 (i 0) (i 1) k)

/-! ## The reference's constant arrays -/

theorem splat (w : BitVec 32) (v : ℝ) (hw : Ideal.ofBits .f32 w = ((v : ℝ) : EReal)) :
    broadcastInDim S2048x1024x1 ![] bcast_S_S2048x1024x1 (constant (F := Ideal) S_ .f32 w) = cv (fun _ => v) := by
  funext i
  rw [broadcastInDim_apply _ _ _ i ix0 (fun a => a.elim0), constant_apply]
  exact hw

theorem one_R : broadcastInDim S2048x1024x1 ![] bcast_S_S2048x1024x1 (constant (F := Ideal) S_ .f32 0x3F800000#32) = cv (fun _ => (1 : ℝ)) :=
  splat _ _ word_one
theorem zero_R : broadcastInDim S2048x1024x1 ![] bcast_S_S2048x1024x1 (constant (F := Ideal) S_ .f32 0x00000000#32) = cv (fun _ => (0 : ℝ)) :=
  splat _ _ word_zero
theorem two_R : broadcastInDim S2048x1024x1 ![] bcast_S_S2048x1024x1 (constant (F := Ideal) S_ .f32 0x40000000#32) = cv (fun _ => (2 : ℝ)) :=
  splat _ _ word_two
theorem four_R : broadcastInDim S2048x1024x1 ![] bcast_S_S2048x1024x1 (constant (F := Ideal) S_ .f32 0x40800000#32) = cv (fun _ => (4 : ℝ)) :=
  splat _ _ word_four

variable (V0 : Valuation τ sig (Elt Ideal)) (r : S2048x1024x32.Idx → ℝ)
variable (hx : (V0 (Proc.devRef .tc main_arg0) : S2048x1024x32.Idx → EReal) = cv r)

theorem h0 : res_main_v0 V0 = cv (fun _ => (1 : ℝ)) := by rw [res_main_v0]; exact one_R
theorem h1 : res_main_v1 V0 = cv (fun _ => (0 : ℝ)) := by rw [res_main_v1]; exact zero_R

/-! ## The slices: one value of every batch element -/

include hx in
/-- A mantissa value: value o of the argument. -/
theorem mslice (o : Nat) (ho : o < 32) (h : S2048x1024x32.Slices ![0, 0, o] S2048x1024x1) :
    extractStridedSlice S2048x1024x1 ![0, 0, o] (V0 (Proc.devRef .tc main_arg0)) h = cv (fun i => rowR r i ⟨o, ho⟩) := by
  funext i
  obtain ⟨a, b, z, rfl⟩ : ∃ (a : Fin 2048) (b : Fin 1024) (z : Fin 1), i = ix3 a b z := ⟨i 0, i 1, i 2, eq_ix3 i⟩
  refine (slice32_1 _ o ho h a b z).trans ?_
  rw [hx]; rfl

include hx in
/-- An exponent value: value o of the eight is value 1 + o of the argument. -/
theorem eslice (o : Nat) (ho : o < 8) (h : S2048x1024x8.Slices ![0, 0, o] S2048x1024x1) :
    extractStridedSlice S2048x1024x1 ![0, 0, o] (res_main_v2 V0) h = cv (fun i => rowR r i ⟨1 + o, by omega⟩) := by
  funext i
  obtain ⟨a, b, z, rfl⟩ : ∃ (a : Fin 2048) (b : Fin 1024) (z : Fin 1), i = ix3 a b z := ⟨i 0, i 1, i 2, eq_ix3 i⟩
  refine (slice8_1 _ o ho h a b z).trans ?_
  unfold res_main_v2
  refine (slice32_8 _ _ a b ⟨o, ho⟩).trans ?_
  rw [hx]; rfl

include hx in
theorem h3 : res_main_v3 V0 = cv (fun i => rowR r i 9) := by rw [res_main_v3]; exact mslice V0 r hx 9 (by omega) _
include hx in
theorem h4 : res_main_v4 V0 = cv (fun i => rowR r i 10) := by rw [res_main_v4]; exact mslice V0 r hx 10 (by omega) _
include hx in
theorem h5 : res_main_v5 V0 = cv (fun i => rowR r i 11) := by rw [res_main_v5]; exact mslice V0 r hx 11 (by omega) _
include hx in
theorem h6 (h : S2048x1024x32.Slices ![0, 0, 12] S2048x1024x1) :
    extractStridedSlice S2048x1024x1 ![0, 0, 12] (V0 (Proc.devRef .tc main_arg0)) h = cv (fun i => rowR r i 12) :=
  mslice V0 r hx 12 (by omega) h
include hx in
theorem h7 : res_main_v7 V0 = cv (fun i => rowR r i 8) := by rw [res_main_v7]; exact eslice V0 r hx 7 (by omega) _
include hx in
theorem h27 : res_main_v27 V0 = cv (fun i => rowR r i 7) := by rw [res_main_v27]; exact eslice V0 r hx 6 (by omega) _
include hx in
theorem h47 : res_main_v47 V0 = cv (fun i => rowR r i 6) := by rw [res_main_v47]; exact eslice V0 r hx 5 (by omega) _
include hx in
theorem h67 : res_main_v67 V0 = cv (fun i => rowR r i 5) := by rw [res_main_v67]; exact eslice V0 r hx 4 (by omega) _
include hx in
theorem h87 : res_main_v87 V0 = cv (fun i => rowR r i 4) := by rw [res_main_v87]; exact eslice V0 r hx 3 (by omega) _
include hx in
theorem h107 : res_main_v107 V0 = cv (fun i => rowR r i 3) := by rw [res_main_v107]; exact eslice V0 r hx 2 (by omega) _
include hx in
theorem h127 : res_main_v127 V0 = cv (fun i => rowR r i 2) := by rw [res_main_v127]; exact eslice V0 r hx 1 (by omega) _
include hx in
theorem h147 : res_main_v147 V0 = cv (fun i => rowR r i 1) := by rw [res_main_v147]; exact eslice V0 r hx 0 (by omega) _

/-! ## The ripple carry: the general adder with b = 0 is the half adder -/

include hx in
theorem h26 : res_main_v26 V0 = cv (fun i => k7 (rowR r i)) := by
  rw [res_main_v26, two_R]
  simp only [res_main_v8, res_main_v9, res_main_v10, res_main_v11, h7 V0 r hx, h0, h1, mulf_cv, addf_cv, subf_cv]
  exact cv_congr fun i => by simp only [k7]; ring
include hx in
theorem h21 : res_main_v21 V0 = cv (fun i => s7 (rowR r i)) := by
  rw [res_main_v21, two_R, four_R]
  simp only [res_main_v8, res_main_v9, res_main_v10, res_main_v11, h7 V0 r hx, h0, h1, mulf_cv, addf_cv, subf_cv]
  exact cv_congr fun i => by simp only [s7, k7]; ring

include hx in
theorem h46 : res_main_v46 V0 = cv (fun i => k6 (rowR r i)) := by
  rw [res_main_v46, two_R]
  simp only [res_main_v28, res_main_v29, res_main_v30, res_main_v31, h27 V0 r hx, h26 V0 r hx, h1, mulf_cv, addf_cv, subf_cv]
  exact cv_congr fun i => by simp only [k6]; ring
include hx in
theorem h41 : res_main_v41 V0 = cv (fun i => s6 (rowR r i)) := by
  rw [res_main_v41, two_R, four_R]
  simp only [res_main_v28, res_main_v29, res_main_v30, res_main_v31, h27 V0 r hx, h26 V0 r hx, h1, mulf_cv, addf_cv, subf_cv]
  exact cv_congr fun i => by simp only [s6, k6]; ring

include hx in
theorem h66 : res_main_v66 V0 = cv (fun i => k5 (rowR r i)) := by
  rw [res_main_v66, two_R]
  simp only [res_main_v48, res_main_v49, res_main_v50, res_main_v51, h47 V0 r hx, h46 V0 r hx, h1, mulf_cv, addf_cv, subf_cv]
  exact cv_congr fun i => by simp only [k5]; ring
include hx in
theorem h61 : res_main_v61 V0 = cv (fun i => s5 (rowR r i)) := by
  rw [res_main_v61, two_R, four_R]
  simp only [res_main_v48, res_main_v49, res_main_v50, res_main_v51, h47 V0 r hx, h46 V0 r hx, h1, mulf_cv, addf_cv, subf_cv]
  exact cv_congr fun i => by simp only [s5, k5]; ring

include hx in
theorem h86 : res_main_v86 V0 = cv (fun i => k4 (rowR r i)) := by
  rw [res_main_v86, two_R]
  simp only [res_main_v68, res_main_v69, res_main_v70, res_main_v71, h67 V0 r hx, h66 V0 r hx, h1, mulf_cv, addf_cv, subf_cv]
  exact cv_congr fun i => by simp only [k4]; ring
include hx in
theorem h106 : res_main_v106 V0 = cv (fun i => k3 (rowR r i)) := by
  rw [res_main_v106, two_R]
  simp only [res_main_v88, res_main_v89, res_main_v90, res_main_v91, h87 V0 r hx, h86 V0 r hx, h1, mulf_cv, addf_cv, subf_cv]
  exact cv_congr fun i => by simp only [k3]; ring
include hx in
theorem h126 : res_main_v126 V0 = cv (fun i => k2 (rowR r i)) := by
  rw [res_main_v126, two_R]
  simp only [res_main_v108, res_main_v109, res_main_v110, res_main_v111, h107 V0 r hx, h106 V0 r hx, h1, mulf_cv, addf_cv, subf_cv]
  exact cv_congr fun i => by simp only [k2]; ring
include hx in
theorem h146 : res_main_v146 V0 = cv (fun i => k1 (rowR r i)) := by
  rw [res_main_v146, two_R]
  simp only [res_main_v128, res_main_v129, res_main_v130, res_main_v131, h127 V0 r hx, h126 V0 r hx, h1, mulf_cv, addf_cv, subf_cv]
  exact cv_congr fun i => by simp only [k1]; ring

/-! ## The decoded shift -/

include hx in
/-- "The top five bits are zero": five factors 1 - (sum bit), the sum bits at positions 4 … 1 the general adder with
    b = 0 and at position 0 with b = 1, each equal to the specialised adder's as a polynomial. -/
theorem h186 : res_main_v186 V0 = cv (fun i => hz (rowR r i)) := by
  rw [res_main_v186, one_R, two_R, four_R]
  simp only [res_main_v148, res_main_v149, res_main_v150, res_main_v151, res_main_v128, res_main_v129, res_main_v130,
    res_main_v131, res_main_v108, res_main_v109, res_main_v110, res_main_v111, res_main_v88, res_main_v89, res_main_v90, res_main_v91,
    res_main_v68, res_main_v69, res_main_v70, res_main_v71, h147 V0 r hx, h127 V0 r hx, h107 V0 r hx, h87 V0 r hx, h67 V0 r hx,
    h146 V0 r hx, h126 V0 r hx, h106 V0 r hx, h86 V0 r hx, h66 V0 r hx, h0, h1, mulf_cv, addf_cv, subf_cv]
  refine cv_congr fun i => ?_
  simp only [hz]
  congr 1
  · congr 1
    · congr 1
      · congr 1
        · simp only [s0]; ring
        · simp only [s1, k1]; ring
      · simp only [s2, k2]; ring
    · simp only [s3, k3]; ring
  · simp only [s4, k4]; ring

include hx in
theorem h178 : res_main_v178 V0 = cv (fun i => 1 - s5 (rowR r i)) := by
  rw [res_main_v178, one_R, h61 V0 r hx, subf_cv]; rfl
include hx in
theorem h180 : res_main_v180 V0 = cv (fun i => 1 - s6 (rowR r i)) := by
  rw [res_main_v180, one_R, h41 V0 r hx, subf_cv]; rfl
include hx in
theorem h182 : res_main_v182 V0 = cv (fun i => 1 - s7 (rowR r i)) := by
  rw [res_main_v182, one_R, h21 V0 r hx, subf_cv]; rfl

include hx in
theorem h192 : res_main_v192 V0 = cv (fun i => is1 (rowR r i)) := by
  simp only [res_main_v192, h186 V0 r hx, h178 V0 r hx, h180 V0 r hx, h21 V0 r hx, mulf_cv]
  exact cv_congr fun i => by simp only [is1]; ring
include hx in
theorem h195 : res_main_v195 V0 = cv (fun i => is2 (rowR r i)) := by
  simp only [res_main_v195, h186 V0 r hx, h178 V0 r hx, h41 V0 r hx, h182 V0 r hx, mulf_cv]
  exact cv_congr fun i => by simp only [is2]; ring
include hx in
theorem h198 : res_main_v198 V0 = cv (fun i => is3 (rowR r i)) := by
  simp only [res_main_v198, h186 V0 r hx, h178 V0 r hx, h41 V0 r hx, h21 V0 r hx, mulf_cv]
  exact cv_congr fun i => by simp only [is3]; ring
include hx in
theorem h201 : res_main_v201 V0 = cv (fun i => is4 (rowR r i)) := by
  simp only [res_main_v201, h186 V0 r hx, h61 V0 r hx, h180 V0 r hx, h182 V0 r hx, mulf_cv]
  exact cv_congr fun i => by simp only [is4]; ring
include hx in
theorem h202 : res_main_v202 V0 = cv (fun i => is0 (rowR r i)) := by
  simp only [res_main_v202, h186 V0 r hx, h178 V0 r hx, h180 V0 r hx, h182 V0 r hx, h0, mulf_cv]
  exact cv_congr fun i => by simp only [is0]; ring

/-! ## The five result bits -/

include hx in
theorem bit4_eq : mulf (res_main_v201 V0) (res_main_v0 V0) = cv (fun i => bit4 (rowR r i)) := by
  simp only [h201 V0 r hx, h0, mulf_cv]
  exact cv_congr fun i => by simp only [bit4]; ring

include hx in
theorem bit3_eq : subf (addf (res_main_v241 V0) (res_main_v242 V0)) (mulf (res_main_v241 V0) (res_main_v242 V0))
    = cv (fun i => bit3 (rowR r i)) := by
  simp only [res_main_v241, res_main_v242, h198 V0 r hx, h201 V0 r hx, h3 V0 r hx, h0, mulf_cv, addf_cv, subf_cv]
  exact cv_congr fun i => by simp only [bit3, orr]; ring

include hx in
theorem bit2_eq : subf (addf (res_main_v237 V0) (res_main_v234 V0)) (mulf (res_main_v237 V0) (res_main_v234 V0))
    = cv (fun i => bit2 (rowR r i)) := by
  simp only [res_main_v237, res_main_v232, res_main_v233, res_main_v234, h195 V0 r hx, h198 V0 r hx, h201 V0 r hx, h3 V0 r hx,
    h4 V0 r hx, h0, mulf_cv, addf_cv, subf_cv]
  exact cv_congr fun i => by simp only [bit2, orr]; ring

include hx in
theorem bit1_eq : subf (addf (res_main_v228 V0) (res_main_v222 V0)) (mulf (res_main_v228 V0) (res_main_v222 V0))
    = cv (fun i => bit1 (rowR r i)) := by
  simp only [res_main_v228, res_main_v225, res_main_v219, res_main_v220, res_main_v221, res_main_v222, h192 V0 r hx, h195 V0 r hx,
    h198 V0 r hx, h201 V0 r hx, h3 V0 r hx, h4 V0 r hx, h5 V0 r hx, h0, mulf_cv, addf_cv, subf_cv]
  exact cv_congr fun i => by simp only [bit1, orr]; ring

include hx in
theorem bit0_eq : subf (addf (res_main_v215 V0) (res_main_v206 V0)) (mulf (res_main_v215 V0) (res_main_v206 V0))
    = cv (fun i => bit0 (rowR r i)) := by
  simp only [res_main_v215, res_main_v212, res_main_v209, res_main_v203, res_main_v204, res_main_v205, res_main_v206, h202 V0 r hx,
    h192 V0 r hx, h195 V0 r hx, h198 V0 r hx, h201 V0 r hx, h3 V0 r hx, h4 V0 r hx, h5 V0 r hx, h6 V0 r hx,
    mulf_cv, addf_cv, subf_cv]
  exact cv_congr fun i => by simp only [bit0, orr]

/-! ## The result -/

/-- The five result arrays, most significant first. -/
def cols (r : S2048x1024x32.Idx → ℝ) : Fin 5 → S2048x1024x1.Idx → EReal :=
  ![cv (fun i => bit4 (rowR r i)), cv (fun i => bit3 (rowR r i)), cv (fun i => bit2 (rowR r i)),
    cv (fun i => bit1 (rowR r i)), cv (fun i => bit0 (rowR r i))]

include hx in
/-- The reference's result term is `result` of the argument. -/
theorem result_eq : concatenate S2048x1024x5 2 [⟨S2048x1024x1, (mulf (res_main_v201 V0) (res_main_v0 V0))⟩, ⟨S2048x1024x1, (subf (addf (res_main_v241 V0) (res_main_v242 V0)) (mulf (res_main_v241 V0) (res_main_v242 V0)))⟩, ⟨S2048x1024x1, (subf (addf (res_main_v237 V0) (res_main_v234 V0)) (mulf (res_main_v237 V0) (res_main_v234 V0)))⟩, ⟨S2048x1024x1, (subf (addf (res_main_v228 V0) (res_main_v222 V0)) (mulf (res_main_v228 V0) (res_main_v222 V0)))⟩, ⟨S2048x1024x1, (subf (addf (res_main_v215 V0) (res_main_v206 V0)) (mulf (res_main_v215 V0) (res_main_v206 V0)))⟩] concatenates_S2048x1024x1_S2048x1024x1_S2048x1024x1_S2048x1024x1_S2048x1024x1_S2048x1024x5_d2 = result r := by
  rw [bit4_eq V0 r hx, bit3_eq V0 r hx, bit2_eq V0 r hx, bit1_eq V0 r hx, bit0_eq V0 r hx]
  funext i
  obtain ⟨a, b, j, rfl⟩ : ∃ (a : Fin 2048) (b : Fin 1024) (j : Fin 5), i = ix3 a b j := ⟨i 0, i 1, i 2, eq_ix3 i⟩
  refine (cat5 (cols r) _ a b j).trans ?_
  match j with
  | ⟨0, _⟩ => rfl
  | ⟨1, _⟩ => rfl
  | ⟨2, _⟩ => rfl
  | ⟨3, _⟩ => rfl
  | ⟨4, _⟩ => rfl

end Cert.Spike.Ref

end
-- ==== Proof.lean ====
/-
  The two programs extract the low five bits of an FP32 word given as 32 "spike" values per batch element (most
  significant first): from the eight exponent values e and the top four mantissa values they compute, with gates
  written as polynomials (AND = product, NOT a = 1 - a, OR(p, q) = p + q - p q), shift = e - 127 by a ripple-carry
  addition e + 10000000b + 1, decode shift ∈ {0, …, 4}, and select the implicit one and the mantissa bits under it.

  The kernel specialises the full adder to the constant's bit (a half adder where it is 0; sum 1 - a - c + 2 a c and
  carry a + c - a c where it is 1); the reference runs the general adder a + b + c - 2 (ab + ac + bc) + 4 abc, carry
  ab + ac + bc - 2 abc, on arrays of zeros and ones for b. For b = 0 and b = 1 these are the same polynomials in a
  and c, and the remaining differences are the grouping of products and a factor 1. Identities of polynomials hold
  over the reals, not at ±∞ (they cancel terms), so the precondition is used: every input is finite, hence a real.

  Kernel side (Proof/KernelBody.lean, Proof/KernelValue.lean): the body's stored block is the polynomials of
  Proof/Spec.lean element by element; the 128 grid points' blocks tile the output array; the operations around the
  region only regroup the batch. Reference side (Proof/RefValue.lean): stage by stage, each named intermediate array
  is the same polynomial. Both runs end at `Cert.Spike.result` of the argument read as reals.
-/
import proofs.«151646_j43860206027307_2_alg».proof.Defs
import proofs.«151646_j43860206027307_2_alg».proof.Proof.Gen.Kernel
import proofs.«151646_j43860206027307_2_alg».proof.Proof.Gen.Kernel.Skeleton
import proofs.«151646_j43860206027307_2_alg».proof.Proof.Gen.Kernel.Launch
import proofs.«151646_j43860206027307_2_alg».proof.Proof.Gen.Kernel.Points
import proofs.«151646_j43860206027307_2_alg».proof.Proof.Gen.Kernel.Frame
import proofs.«151646_j43860206027307_2_alg».proof.Proof.Gen.KernelIdeal
import proofs.«151646_j43860206027307_2_alg».proof.Proof.Gen.KernelIdeal.Skeleton
import proofs.«151646_j43860206027307_2_alg».proof.Proof.Gen.KernelIdeal.Launch
import proofs.«151646_j43860206027307_2_alg».proof.Proof.Gen.KernelIdeal.Points
import proofs.«151646_j43860206027307_2_alg».proof.Proof.Gen.KernelIdeal.Frame
import proofs.«151646_j43860206027307_2_alg».proof.Proof.Gen.ReferenceIdeal
import proofs.«151646_j43860206027307_2_alg».proof.Proof.Gen.ReferenceIdeal.Run
import proofs.«151646_j43860206027307_2_alg».proof.Proof.Gen.Pre_finite_inputs
import proofs.«151646_j43860206027307_2_alg».proof.Proof.Finite
import proofs.«151646_j43860206027307_2_alg».proof.Proof.KernelValue
import proofs.«151646_j43860206027307_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its argument. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and keeps its argument: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals: nothing to state. -/
theorem preserves : Cert.preserves_Kernel_KernelIdeal := trivial

/-- From memories that agree on a finite argument, both programs end with `result` of that argument read as reals. -/
theorem algebraic : Cert.algebraic_KernelIdeal_ReferenceIdeal := by
  intro m ρ m' ρ' hpre hagree
  have hfin : ∀ (c : Dev Cert.KernelIdeal.nD) (i : Cert.KernelIdeal.S2048x1024x32.Idx),
      (m ((c.tc : Thread Cert.KernelIdeal.nD Cert.KernelIdeal.τ).loc Cert.KernelIdeal.main_arg0) : Cert.KernelIdeal.S2048x1024x32.Idx → EReal) i ≠ (⊤ : EReal)
      ∧ (m ((c.tc : Thread Cert.KernelIdeal.nD Cert.KernelIdeal.τ).loc Cert.KernelIdeal.main_arg0) : Cert.KernelIdeal.S2048x1024x32.Idx → EReal) i ≠ (⊥ : EReal) :=
    fun c i => Cert.Spike.finite_of_pre _ (hpre c) i
  have hx : ∀ c : Dev Cert.KernelIdeal.nD,
      (m ((c.tc : Thread Cert.KernelIdeal.nD Cert.KernelIdeal.τ).loc Cert.KernelIdeal.main_arg0) : Cert.KernelIdeal.S2048x1024x32.Idx → EReal)
        = Cert.RealArray.cv (fun i => EReal.toReal
            ((m ((c.tc : Thread Cert.KernelIdeal.nD Cert.KernelIdeal.τ).loc Cert.KernelIdeal.main_arg0) : Cert.KernelIdeal.S2048x1024x32.Idx → EReal) i)) :=
    fun c => funext fun i => (EReal.coe_toReal (hfin c i).1 (hfin c i).2).symm
  refine ⟨fun c => Cert.Spike.result (fun i => EReal.toReal
      ((m ((c.tc : Thread Cert.KernelIdeal.nD Cert.KernelIdeal.τ).loc Cert.KernelIdeal.main_arg0) : Cert.KernelIdeal.S2048x1024x32.Idx → EReal) i)),
    Cert.Spike.KValue.run m ρ _ hx, ?_⟩
  refine (θ_run Cert.ReferenceIdeal.defs _ _).mono (fun _ h c => ⟨(h c).1.trans ?_, (h c).2⟩)
    (Cert.ReferenceIdeal.Value.run (F := Ideal) m' ρ')
  exact Cert.Spike.Ref.result_eq (StableHlo.launchContents m' c) _ ((hagree c).trans (hx c))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
